-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8192x4096 .f32) (main_arg1 : IVec S11008x4096 32) (main_arg2 : FVec F S11008 .f32) (main_arg3 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8192x4096 : Shape := ⟨2, ![8192, 4096]⟩
abbrev S11008x4096 : Shape := ⟨2, ![11008, 4096]⟩
abbrev S11008 : Shape := ⟨1, ![11008]⟩
abbrev S1x11008 : Shape := ⟨2, ![1, 11008]⟩
abbrev S8192x11008 : Shape := ⟨2, ![8192, 11008]⟩
abbrev S1024x1024 : Shape := ⟨2, ![1024, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S1x11008, .f32⟩
  | .hbm, ⟨5, _⟩ => ⟨S1x11008, .f32⟩
  | .hbm, ⟨6, _⟩ => ⟨S8192x11008, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .i32⟩
  | .local _ .vmem, ⟨3, _⟩ => ⟨S1024x1024, .i32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 11, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S11008_S1x11008 : S11008.ShapeCasts S1x11008
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1024.size a < S11008x4096.size a
  hwx0_1 : ∀ i : grid0.Coords, EltTy.bits .i32 = 32 ∨ (Rect.unit (s := S11008x4096) (fun a => cc0_transform_1 i a * S1024x1024.size a) (fun a => (Pipeline.Clip.of (cc0_transform_1 i a) (S1024x1024.size a) (S11008x4096.size a)).extent (S1024x1024.size a)) fun a => Pipeline.Clip.inb (Pipeline.Clip.ok_of (hstart0_1 i a))).WholeWords (EltTy.packing .i32)
  hwxs0_1 : ∀ i : grid0.Coords, EltTy.bits .i32 = 32 ∨ (Rect.unit (s := S1024x1024) (fun _ => 0) (fun a => (Pipeline.Clip.of (cc0_transform_1 i a) (S1024x1024.size a) (S11008x4096.size a)).extent (S1024x1024.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1024.size a < S1x11008.size a
  hwx0_2 : ∀ i : grid0.Coords, EltTy.bits .f32 = 32 ∨ (Rect.unit (s := S1x11008) (fun a => cc0_transform_2 i a * S1x1024.size a) (fun a => (Pipeline.Clip.of (cc0_transform_2 i a) (S1x1024.size a) (S1x11008.size a)).extent (S1x1024.size a)) fun a => Pipeline.Clip.inb (Pipeline.Clip.ok_of (hstart0_2 i a))).WholeWords (EltTy.packing .f32)
  hwxs0_2 : ∀ i : grid0.Coords, EltTy.bits .f32 = 32 ∨ (Rect.unit (s := S1x1024) (fun _ => 0) (fun a => (Pipeline.Clip.of (cc0_transform_2 i a) (S1x1024.size a) (S1x11008.size a)).extent (S1x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x1024.size a < S1x11008.size a
  hwx0_3 : ∀ i : grid0.Coords, EltTy.bits .f32 = 32 ∨ (Rect.unit (s := S1x11008) (fun a => cc0_transform_3 i a * S1x1024.size a) (fun a => (Pipeline.Clip.of (cc0_transform_3 i a) (S1x1024.size a) (S1x11008.size a)).extent (S1x1024.size a)) fun a => Pipeline.Clip.inb (Pipeline.Clip.ok_of (hstart0_3 i a))).WholeWords (EltTy.packing .f32)
  hwxs0_3 : ∀ i : grid0.Coords, EltTy.bits .f32 = 32 ∨ (Rect.unit (s := S1x1024) (fun _ => 0) (fun a => (Pipeline.Clip.of (cc0_transform_3 i a) (S1x1024.size a) (S1x11008.size a)).extent (S1x1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1024x1024.size a < S8192x11008.size a
  hwx0_4 : ∀ i : grid0.Coords, EltTy.bits .f32 = 32 ∨ (Rect.unit (s := S8192x11008) (fun a => cc0_transform_4 i a * S1024x1024.size a) (fun a => (Pipeline.Clip.of (cc0_transform_4 i a) (S1024x1024.size a) (S8192x11008.size a)).extent (S1024x1024.size a)) fun a => Pipeline.Clip.inb (Pipeline.Clip.ok_of (hstart0_4 i a))).WholeWords (EltTy.packing .f32)
  hwxs0_4 : ∀ i : grid0.Coords, EltTy.bits .f32 = 32 ∨ (Rect.unit (s := S1024x1024) (fun _ => 0) (fun a => (Pipeline.Clip.of (cc0_transform_4 i a) (S1024x1024.size a) (S8192x11008.size a)).extent (S1024x1024.size a)) fun a => (Nat.zero_add _).trans_le (Pipeline.Clip.extent_le (Pipeline.Clip.ok_of (hstart0_4 i a)))).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S1x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S1x1024.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v2) S1024x1024.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S11008x4096 : Shape := ⟨2, ![11008, 4096]⟩
abbrev S11008 : Shape := ⟨1, ![11008]⟩
abbrev S11008x1 : Shape := ⟨2, ![11008, 1]⟩
abbrev S8192x11008 : Shape := ⟨2, ![8192, 11008]⟩
abbrev S1x11008 : Shape := ⟨2, ![1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008x4096, .f32⟩
  | .hbm, ⟨5, _⟩ => ⟨S11008x1, .f32⟩
  | .hbm, ⟨6, _⟩ => ⟨S11008x4096, .f32⟩
  | .hbm, ⟨7, _⟩ => ⟨S11008x4096, .f32⟩
  | .hbm, ⟨8, _⟩ => ⟨S8192x11008, .f32⟩
  | .hbm, ⟨9, _⟩ => ⟨S1x11008, .f32⟩
  | .hbm, ⟨10, _⟩ => ⟨S8192x11008, .f32⟩
  | .hbm, ⟨11, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  dot_S8192x4096_S11008x4096_S8192x11008_1_1_0_0_n_n_wf : DotDims.WF S8192x4096 S11008x4096 S8192x11008 [1] [1] [0] [0] [] []

variable [Facts₀]

def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.KernCases.lean ====
/-
  The grid of this kernel is 8 x 11 x 4: a block of 1024 rows of the activations, a block of 1024 weight rows, and one
  of the four blocks of 1024 positions of the contracted axis, the last coordinate moving fastest. So point `t` is at
  position `t mod 4` of its run of four. The body branches twice on that position: at position 0 it first clears its
  accumulator, and at position 3 it scales the accumulator, adds the bias and stores the result block. This file decides
  both conditions over the grid, says where the result window is idle (every position but 3) and not written back,
  and names the staging buffers the body is called with.
-/
import proofs.«124493_j34883724378155_1_alg».proof.Proof.Gen.KernelIdeal.Frame
import proofs.«124493_j34883724378155_1_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two conditions -/

/-- "This is the first block of the contracted axis" (the accumulator is cleared), as the body computes it. -/
abbrev isFirst (i : grid0.Coords) : Prop := (Scalar.cmpi .ne (Scalar.extui (Scalar.cmpi .eq (BitVec.ofNat 32 (i 2).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "This is the last block of the contracted axis" (the result block is stored), as the body computes it. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last block the body stores nothing into the result window, -/
theorem idle4 : ∀ t : Fin cfg0.N, ¬isLast (grid0.coords t) → cfg0.idle 4 (grid0.coords t) = true := by decide +kernel
/-- and the result block is not written back there; -/
theorem noFlush4 : ∀ t : Fin cfg0.N, ¬isLast (grid0.coords t) → (cfg0.win 4).flush t = false := by decide +kernel
/-- at the last block it stores the whole block, which is then written back. -/
theorem live4 : ∀ t : Fin cfg0.N, isLast (grid0.coords t) → cfg0.idle 4 (grid0.coords t) = false := by decide +kernel
theorem flush4 : ∀ t : Fin cfg0.N, isLast (grid0.coords t) → (cfg0.win 4).flush t = true := by decide +kernel

/-! ## The staging buffers at a point -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)
/-- The accumulator: a whole buffer of the kernel's own, beside the windows. -/
abbrev accM : Memref sig .tc .vmem S1024x1024 .f32 := Memref.whole cc0_scratch0
abbrev accV : View sig .tc .vmem S1024x1024 .f32 := accM.view
/-- One staging buffer of the result window, through which its contents are stated. -/
abbrev outV : View sig .tc .vmem S1024x1024 .f32 := (Memref.whole cc0_stg4_0 : Memref sig .tc .vmem S1024x1024 .f32).view

/-- What the region may use beside the windows: the accumulator at some contents and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.KernRunA.lean ====
/-
  The body at the first block of the contracted axis, on any staging buffers: it clears the accumulator, multiplies the
  activation block by the transposed weight block, adds the product to the cleared accumulator and stores the sum
  back. The result window is not touched. The list of stores the accumulator ends with is found by running the body.
-/
import proofs.«124493_j34883724378155_1_alg».proof.Proof.KernCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the accumulator ends with at a first block (newest first), with the proof that the body runs: the four
    input buffers and the result buffer are handed back as they were found. -/
noncomputable def runFirst (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : isFirst i) (hc1 : ¬isLast i)
    (x0 : Vec F S1024x1024 .f32) (x1 : Vec F S1024x1024 .i32) :
    { LS : List (View.Piece (Elt F) S1024x1024 .f32) //
      ∀ (x2 x3 : Vec F S1x1024 .f32) (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__matmul_kernel i arg3 harg3 arg4 harg4 arg5 harg5 arg6 harg6 arg7 harg7 arg8 harg8) K } := by
  refine ⟨?_, fun x2 x3 xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.KernRunB.lean ====
/-
  The body at a middle block of the contracted axis (neither the first nor the last), on any staging buffers: it
  multiplies the activation block by the transposed weight block, adds the product to what the accumulator held and
  stores the sum back. The result window is not touched.
-/
import proofs.«124493_j34883724378155_1_alg».proof.Proof.KernRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the accumulator ends with at a middle block, from what it held (`xs`), with the proof that the body runs. -/
noncomputable def runMiddle (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : ¬isLast i)
    (x0 : Vec F S1024x1024 .f32) (x1 : Vec F S1024x1024 .i32) (xs : Vec F S1024x1024 .f32) :
    { LS : List (View.Piece (Elt F) S1024x1024 .f32) //
      ∀ (x2 x3 : Vec F S1x1024 .f32) (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__matmul_kernel i arg3 harg3 arg4 harg4 arg5 harg5 arg6 harg6 arg7 harg7 arg8 harg8) K } := by
  refine ⟨?_, fun x2 x3 xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.KernRunC.lean ====
/-
  The body at the last block of the contracted axis, on any staging buffers: it adds the last product to the
  accumulator, stores the sum back, then multiplies the accumulator by the row of steps, adds the row of biases and
  stores that into the result window's buffer.
-/
import proofs.«124493_j34883724378155_1_alg».proof.Proof.KernRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the result buffer and the accumulator end with at a last block, from what the accumulator held (`xs`),
    with the proof that the body runs. -/
noncomputable def runLast (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : isLast i)
    (x0 : Vec F S1024x1024 .f32) (x1 : Vec F S1024x1024 .i32) (x2 x3 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__matmul_kernel i arg3 harg3 arg4 harg4 arg5 harg5 arg6 harg6 arg7 harg7 arg8 harg8) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2
    obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.Hand

end
-- ==== Proof.KernPieces.lean ====
/-
  What the stores found by running the body leave, in closed form: each buffer the body writes is stored whole, so what
  it holds afterwards is the value of its newest store, as a function of what the body loaded.
  At a first block the accumulator ends at the product added to the cleared accumulator; at a later block at the
  product added to what it held; at a last block the result buffer ends at that sum scaled by the steps plus the biases.
-/
import proofs.«124493_j34883724378155_1_alg».proof.Proof.KernRunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeroOffsets : (![0, 0] : Fin 2 → Nat) = fun _ => 0 := funext fun a => by fin_cases a <;> rfl

/-- Each run's newest store covers the whole accumulator (and, at a last block, the whole result buffer). -/
theorem coverFirst (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : isFirst i) (hc1 : ¬isLast i)
    (x0 : Vec F S1024x1024 .f32) (x1 : Vec F S1024x1024 .i32) (y : S1024x1024.Idx) :
    ∃ pc ∈ (runFirst c i arg3 harg3 arg4 harg4 arg5 harg5 arg6 harg6 arg7 harg7 arg8 harg8 hc0 hc1 x0 x1).1, y ∈ pc.1.set :=
  View.cover_of_tiledL (runFirst c i arg3 harg3 arg4 harg4 arg5 harg5 arg6 harg6 arg7 harg7 arg8 harg8 hc0 hc1 x0 x1).1 S1024x1024.size (by sl_kernel_rfl) y

theorem coverMiddle (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : ¬isLast i)
    (x0 : Vec F S1024x1024 .f32) (x1 : Vec F S1024x1024 .i32) (xs : Vec F S1024x1024 .f32) (y : S1024x1024.Idx) :
    ∃ pc ∈ (runMiddle c i arg3 harg3 arg4 harg4 arg5 harg5 arg6 harg6 arg7 harg7 arg8 harg8 hc0 hc1 x0 x1 xs).1, y ∈ pc.1.set :=
  View.cover_of_tiledL (runMiddle c i arg3 harg3 arg4 harg4 arg5 harg5 arg6 harg6 arg7 harg7 arg8 harg8 hc0 hc1 x0 x1 xs).1 S1024x1024.size (by sl_kernel_rfl) y

theorem coverLastOut (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : isLast i)
    (x0 : Vec F S1024x1024 .f32) (x1 : Vec F S1024x1024 .i32) (x2 x3 : Vec F S1x1024 .f32) (xs : Vec F S1024x1024 .f32) (y : S1024x1024.Idx) :
    ∃ pc ∈ (runLast c i arg3 harg3 arg4 harg4 arg5 harg5 arg6 harg6 arg7 harg7 arg8 harg8 hc0 hc1 x0 x1 x2 x3 xs).1, y ∈ pc.1.set :=
  View.cover_of_tiledL (runLast c i arg3 harg3 arg4 harg4 arg5 harg5 arg6 harg6 arg7 harg7 arg8 harg8 hc0 hc1 x0 x1 x2 x3 xs).1 S1024x1024.size (by sl_kernel_rfl) y

theorem coverLastAcc (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : isLast i)
    (x0 : Vec F S1024x1024 .f32) (x1 : Vec F S1024x1024 .i32) (x2 x3 : Vec F S1x1024 .f32) (xs : Vec F S1024x1024 .f32) (y : S1024x1024.Idx) :
    ∃ pc ∈ (runLast c i arg3 harg3 arg4 harg4 arg5 harg5 arg6 harg6 arg7 harg7 arg8 harg8 hc0 hc1 x0 x1 x2 x3 xs).2.1, y ∈ pc.1.set :=
  View.cover_of_tiledL (runLast c i arg3 harg3 arg4 harg4 arg5 harg5 arg6 harg6 arg7 harg7 arg8 harg8 hc0 hc1 x0 x1 x2 x3 xs).2.1 S1024x1024.size (by sl_kernel_rfl) y

/-- At a first block the accumulator ends at the block product added to zero. -/
theorem canonFirst (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : isFirst i) (hc1 : ¬isLast i)
    (x0 : Vec F S1024x1024 .f32) (x1 : Vec F S1024x1024 .i32) :
    View.canon (runFirst c i arg3 harg3 arg4 harg4 arg5 harg5 arg6 harg6 arg7 harg7 arg8 harg8 hc0 hc1 x0 x1).1 = k0_pay2 x0 x1 (k0_pay1 (F := F)) := by
  unfold runFirst; dsimp only; sl_unfold_words
  rw [View.canon_cons_unit_zero zeroOffsets]
  simp only [View.readAt_eq_ld, harg3.read_unread, harg4.read_unread, View.ld_unit_zero (S := S1024x1024) zeroOffsets]
  exact congrArg (k0_pay2 x0 x1) (View.readCov_unit_zero arg8.view zeroOffsets _ _)

/-- At a middle block it ends at the block product added to what it held. -/
theorem canonMiddle (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : ¬isLast i)
    (x0 : Vec F S1024x1024 .f32) (x1 : Vec F S1024x1024 .i32) (xs : Vec F S1024x1024 .f32) :
    View.canon (runMiddle c i arg3 harg3 arg4 harg4 arg5 harg5 arg6 harg6 arg7 harg7 arg8 harg8 hc0 hc1 x0 x1 xs).1 = k0_pay2 x0 x1 xs := by
  unfold runMiddle; dsimp only; sl_unfold_words
  rw [View.canon_unit_zero zeroOffsets]
  simp only [View.readAt_eq_ld, harg3.read_unread, harg4.read_unread, harg8.read_unread, View.ld_unit_zero (S := S1024x1024) zeroOffsets]

/-- At a last block likewise, -/
theorem canonLastAcc (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : isLast i)
    (x0 : Vec F S1024x1024 .f32) (x1 : Vec F S1024x1024 .i32) (x2 x3 : Vec F S1x1024 .f32) (xs : Vec F S1024x1024 .f32) :
    View.canon (runLast c i arg3 harg3 arg4 harg4 arg5 harg5 arg6 harg6 arg7 harg7 arg8 harg8 hc0 hc1 x0 x1 x2 x3 xs).2.1 = k0_pay2 x0 x1 xs := by
  unfold runLast; dsimp only; sl_unfold_words
  rw [View.canon_unit_zero zeroOffsets]
  simp only [View.readAt_eq_ld, harg3.read_unread, harg4.read_unread, harg8.read_unread, View.ld_unit_zero (S := S1024x1024) zeroOffsets]

/-- and the result buffer ends at that sum times the steps plus the biases. -/
theorem canonLastOut (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : isLast i)
    (x0 : Vec F S1024x1024 .f32) (x1 : Vec F S1024x1024 .i32) (x2 x3 : Vec F S1x1024 .f32) (xs : Vec F S1024x1024 .f32) :
    View.canon (runLast c i arg3 harg3 arg4 harg4 arg5 harg5 arg6 harg6 arg7 harg7 arg8 harg8 hc0 hc1 x0 x1 x2 x3 xs).1 = k0_pay3 (k0_pay2 x0 x1 xs) x2 x3 := by
  unfold runLast; dsimp only; sl_unfold_words
  rw [View.canon_unit_zero zeroOffsets]
  simp only [View.readAt_eq_ld, harg3.read_unread, harg4.read_unread, harg5.read_unread, harg6.read_unread, harg8.read_unread,
    View.ld_unit_zero (S := S1024x1024) zeroOffsets, View.ld_unit_zero (S := S1x1024) zeroOffsets]
  exact congrArg (fun a => k0_pay3 a x2 x3) (View.readCov_unit_zero arg8.view zeroOffsets _ _)

end Cert.KernelIdeal.Hand

end
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.KernPay.lean ====
/-
  What the body's three stores hold, entry by entry over the extended reals.

  The accumulator is cleared to zero; the running store adds to the accumulator's entry `(r, q)` the dot product of row
  `r` of the activation block with row `q` of the weight block (a change of float format is the identity, and an integer
  is read as the number it is); the final store multiplies the accumulator's entry `(r, q)` by entry `q` of the row of
  steps and adds entry `q` of the row of biases.
-/
import proofs.«124493_j34883724378155_1_alg».proof.Proof.Gen.KernelIdeal.Skeleton
import proofs.«124493_j34883724378155_1_alg».proof.Proof.LibRowsTimesRows
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- The cleared accumulator is zero everywhere. -/
theorem pay1_apply (j : S1024x1024.Idx) : k0_pay1 (F := Ideal) j = 0 := by
  unfold k0_pay1
  rw [shapeCast_self]
  exact Ideal.ofBits_zero_f32

/-- The running store: the old entry plus the dot product of the two block rows. -/
theorem pay2_apply (v3 : Vec Ideal S1024x1024 .f32) (v5 : Vec Ideal S1024x1024 .i32) (v8 : Vec Ideal S1024x1024 .f32)
    (r q : Fin 1024) :
    k0_pay2 (F := Ideal) v3 v5 v8 (ix2 r q)
      = v8 (ix2 r q) + ∑ c : Fin 1024, v3 (ix2 r c) * FloatOps.sitofp (F := Ideal) .f32 (v5 (ix2 q c)) := by
  unfold k0_pay2
  rw [shapeCast_self]
  show v8 (ix2 r q) + _ = _
  congr 1
  exact Cert.RowsTimesRows.rowsMatmul_zero_apply (R := 1024) (n := 1024) (k := 1024) _ none _ _ r q

/-- The final store: the accumulated entry times the step of its column, plus the bias of its column. -/
theorem pay3_apply (v17 : Vec Ideal S1024x1024 .f32) (v18 v22 : Vec Ideal S1x1024 .f32) (r q : Fin 1024) :
    k0_pay3 (F := Ideal) v17 v18 v22 (ix2 r q) = v17 (ix2 r q) * v18 (ix2 (0 : Fin 1) q) + v22 (ix2 (0 : Fin 1) q) := by
  unfold k0_pay3
  rw [shapeCast_self, shapeCast_self]
  show v17 (ix2 r q) * broadcastTo S1024x1024 v18 _ (ix2 r q) + broadcastTo S1024x1024 v22 _ (ix2 r q) = _
  rw [broadcastTo_1b_ab_apply, broadcastTo_1b_ab_apply]

end Cert.KernelIdeal.Hand

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.Spec.lean ====
/-
  The layer both programs compute, as one function of the argument arrays, entry by entry over the extended reals.

  For an activation matrix `x` (8192 rows of 4096 entries), a weight matrix `w` (11008 rows of 4096 entries; the
  integer weights already read as numbers), a step `s` and a bias `b` per weight row, entry `(t, o)` of the result is
  the dot product of row `t` of `x` with row `o` of `w`, multiplied by the step of row `o`, plus the bias of row `o`:

      out (t, o) = (Σ_i x (t, i) · w (o, i)) · s (o) + b (o).

  The kernel reaches this by adding up the dot product over four consecutive blocks of 1024 positions and scaling the
  total once; the reference scales every weight first, Σ_i x (t, i) · (w (o, i) · s (o)), and adds the bias.
-/
import Idealize.ShloMosaic.PureOps.Ideal
import Idealize.ShloMosaic.Lib.ValueIdx

noncomputable section

namespace Cert.Spec

open Idealize.ShloMosaic Idealize.ShloMosaic.ValueIdx

/-- The shapes of the four arguments and of the result. -/
abbrev SX : Shape := ⟨2, ![8192, 4096]⟩
abbrev SW : Shape := ⟨2, ![11008, 4096]⟩
abbrev SV : Shape := ⟨1, ![11008]⟩
abbrev SO : Shape := ⟨2, ![8192, 11008]⟩

/-- Entry `(t, o)` of the layer. -/
def entry (x : SX.Idx → EReal) (w : SW.Idx → EReal) (s b : SV.Idx → EReal) (t : Fin 8192) (o : Fin 11008) : EReal :=
  (∑ i : Fin 4096, x (ix2 t i) * w (ix2 o i)) * s (ix1 o) + b (ix1 o)

/-- The whole result array. -/
def layer (x : SX.Idx → EReal) (w : SW.Idx → EReal) (s b : SV.Idx → EReal) : SO.Idx → EReal :=
  fun j => entry x w s b (j 0) (j 1)

theorem layer_apply (x : SX.Idx → EReal) (w : SW.Idx → EReal) (s b : SV.Idx → EReal) (t : Fin 8192) (o : Fin 11008) :
    layer x w s b (ix2 t o) = entry x w s b t o := rfl

end Cert.Spec

end
-- ==== Proof.KernInv.lean ====
/-
  The arithmetic of the accumulator, with no program in sight.

  Position `n` of the grid (8 x 11 x 4, the last coordinate fastest) works on rows `(n / 44)·1024 + r` of the
  activations, on weight rows `((n / 4) mod 11)·1024 + q`, and on block `n mod 4` of the four blocks of 1024 positions
  of the contracted axis. Weight row `q` of the block exists when `((n / 4) mod 11)·1024 + q < 11008`; the last of the
  eleven weight blocks overhangs the array, and nothing is said of the entries computed from rows that do not exist.

  For an entry `(r, q)` whose weight row exists, the accumulator after position `n` holds the sum of the products
  `x (row, i) · w (wrow, i)` over the blocks `0 … n mod 4` of the contracted axis: the first block adds its products to
  zero, every later block adds its products to what the accumulator held. After the last block this is the whole dot
  product, and the stored result is that dot product times the step of the weight row plus its bias.
-/
import proofs.«124493_j34883724378155_1_alg».proof.Proof.KernPay
import proofs.«124493_j34883724378155_1_alg».proof.Proof.LibBlockedSum
import proofs.«124493_j34883724378155_1_alg».proof.Proof.Spec

set_option maxRecDepth 16384

noncomputable section

namespace Cert.KernelIdeal.Hand

open Cert.KernelIdeal Cert.KernelIdeal.Gen
open Idealize.ShloMosaic Idealize.ShloMosaic.ValueIdx BlockedSum

/-- The row of the activations that row `r` of the block at position `n` is. -/
def rowX (n : ℕ) (r : Fin 1024) : Fin 8192 := ⟨(n / 44 * 1024 + r.val) % 8192, Nat.mod_lt _ (by norm_num)⟩
/-- The weight row that row `q` of the weight block at position `n` is. -/
def rowW (n : ℕ) (q : Fin 1024) : Fin 11008 := ⟨(n / 4 % 11 * 1024 + q.val) % 11008, Nat.mod_lt _ (by norm_num)⟩
/-- Weight row `q` of the block at position `n` lies inside the weight array. -/
def Valid (n : ℕ) (q : Fin 1024) : Prop := n / 4 % 11 * 1024 + q.val < 11008

theorem pos4096 : 0 < 4096 := by norm_num

/-- The products of one result entry along the contracted axis. -/
def terms (X : Cert.Spec.SX.Idx → EReal) (W : Cert.Spec.SW.Idx → EReal) (n : ℕ) (r q : Fin 1024) : Fin 4096 → EReal :=
  fun i => X (ix2 (rowX n r) i) * W (ix2 (rowW n q) i)

/-- What the accumulator holds after position `n`, on the entries whose weight row exists. -/
def AccOK (X : Cert.Spec.SX.Idx → EReal) (W : Cert.Spec.SW.Idx → EReal) (n : ℕ) (acc : Vec Ideal S1024x1024 .f32) : Prop :=
  ∀ r q : Fin 1024, Valid n q → acc (ix2 r q) = partialSum pos4096 1024 (terms X W n r q) (n % 4)

/-- The activation block at position `n`. -/
def XBlock (X : Cert.Spec.SX.Idx → EReal) (n : ℕ) (x0 : Vec Ideal S1024x1024 .f32) : Prop :=
  ∀ r c : Fin 1024, x0 (ix2 r c) = X (ix2 (rowX n r) (blkIdx pos4096 1024 (n % 4) c))
/-- The weight block at position `n`, read as numbers, on the rows that exist. -/
def WBlock (W : Cert.Spec.SW.Idx → EReal) (n : ℕ) (x1 : Vec Ideal S1024x1024 .i32) : Prop :=
  ∀ q c : Fin 1024, Valid n q → FloatOps.sitofp (F := Ideal) .f32 (x1 (ix2 q c)) = W (ix2 (rowW n q) (blkIdx pos4096 1024 (n % 4) c))

theorem block_products {X W n} {x0 : Vec Ideal S1024x1024 .f32} {x1 : Vec Ideal S1024x1024 .i32}
    (hx : XBlock X n x0) (hw : WBlock W n x1) (r q : Fin 1024) (hq : Valid n q) :
    ∑ c : Fin 1024, x0 (ix2 r c) * FloatOps.sitofp (F := Ideal) .f32 (x1 (ix2 q c)) = blockSum pos4096 1024 (terms X W n r q) (n % 4) := by
  unfold blockSum terms
  exact Finset.sum_congr rfl fun c _ => by rw [hx r c, hw q c hq]

/-- The first block: the products added to the cleared accumulator. -/
theorem acc_first {X W n} (h0 : n % 4 = 0) {x0 : Vec Ideal S1024x1024 .f32} {x1 : Vec Ideal S1024x1024 .i32}
    (hx : XBlock X n x0) (hw : WBlock W n x1) : AccOK X W n (k0_pay2 (F := Ideal) x0 x1 (k0_pay1 (F := Ideal))) := by
  intro r q hq
  rw [pay2_apply, pay1_apply, zero_add, block_products hx hw r q hq, h0, partialSum_zero]

/-- A later block: the products added to what the accumulator held after the position before. -/
theorem acc_next {X W n} (h0 : n % 4 ≠ 0) {x0 : Vec Ideal S1024x1024 .f32} {x1 : Vec Ideal S1024x1024 .i32}
    {xs : Vec Ideal S1024x1024 .f32} (hx : XBlock X n x0) (hw : WBlock W n x1) (hs : AccOK X W (n - 1) xs) :
    AccOK X W n (k0_pay2 (F := Ideal) x0 x1 xs) := by
  intro r q hq
  have e1 : (n - 1) / 44 = n / 44 := by omega
  have e2 : (n - 1) / 4 % 11 = n / 4 % 11 := by omega
  have e3 : n % 4 = (n - 1) % 4 + 1 := by omega
  have hq' : Valid (n - 1) q := by unfold Valid at *; rw [e2]; exact hq
  have hX : rowX (n - 1) r = rowX n r := Fin.ext (by show ((n - 1) / 44 * 1024 + r.val) % 8192 = (n / 44 * 1024 + r.val) % 8192; rw [e1])
  have hW : rowW (n - 1) q = rowW n q := Fin.ext (by show ((n - 1) / 4 % 11 * 1024 + q.val) % 11008 = (n / 4 % 11 * 1024 + q.val) % 11008; rw [e2])
  have ht : terms X W (n - 1) r q = terms X W n r q := by unfold terms; rw [hX, hW]
  rw [pay2_apply, hs r q hq', ht, block_products hx hw r q hq]
  generalize terms X W n r q = g
  rw [e3, partialSum_succ]

/-- After the last block the stored result is the layer's entry. -/
theorem out_last {X W} {s b : Cert.Spec.SV.Idx → EReal} {n} (h3 : n % 4 = 3) {acc : Vec Ideal S1024x1024 .f32} {x2 x3 : Vec Ideal S1x1024 .f32}
    (ha : AccOK X W n acc) (hs : ∀ q, Valid n q → x2 (ix2 (0 : Fin 1) q) = s (ix1 (rowW n q)))
    (hb : ∀ q, Valid n q → x3 (ix2 (0 : Fin 1) q) = b (ix1 (rowW n q))) (r q : Fin 1024) (hq : Valid n q) :
    k0_pay3 (F := Ideal) acc x2 x3 (ix2 r q) = Cert.Spec.entry X W s b (rowX n r) (rowW n q) := by
  rw [pay3_apply, ha r q hq, hs q hq, hb q hq, h3,
    partialSum_last pos4096 (nb := 4) (bs := 1024) (by norm_num) _ rfl]
  rfl

end Cert.KernelIdeal.Hand

end
-- ==== Proof.KernBlocks.lean ====
/-
  The blocks the pipeline hands the body, entry by entry: which entry of its array each entry of a block is.
  Block `t` of the activations starts at row `(t / 44)·1024` and column `(t mod 4)·1024`; block `t` of the weights at
  row `((t / 4) mod 11)·1024` and the same column; the rows of steps and biases at column `((t / 4) mod 11)·1024`.
  The last weight block overhangs the array: only its first 768 rows are fetched.
-/
import proofs.«124493_j34883724378155_1_alg».proof.Proof.KernCases
import proofs.«124493_j34883724378155_1_alg».proof.Proof.KernInv
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx BlockedSum

/-- The block indices, decided over the grid. -/
theorem index0 : ∀ t : Fin cfg0.N, win0_0.index t 0 = t.val / 44 ∧ win0_0.index t 1 = t.val % 4 :=
  (by decide +kernel : ∀ t : Fin grid0.N, win0_0.index t 0 = t.val / 44 ∧ win0_0.index t 1 = t.val % 4)
theorem index1 : ∀ t : Fin cfg0.N, win0_1.index t 0 = t.val / 4 % 11 ∧ win0_1.index t 1 = t.val % 4 :=
  (by decide +kernel : ∀ t : Fin grid0.N, win0_1.index t 0 = t.val / 4 % 11 ∧ win0_1.index t 1 = t.val % 4)
theorem index2 : ∀ t : Fin cfg0.N, win0_2.index t 0 = 0 ∧ win0_2.index t 1 = t.val / 4 % 11 :=
  (by decide +kernel : ∀ t : Fin grid0.N, win0_2.index t 0 = 0 ∧ win0_2.index t 1 = t.val / 4 % 11)
theorem index3 : ∀ t : Fin cfg0.N, win0_3.index t 0 = 0 ∧ win0_3.index t 1 = t.val / 4 % 11 :=
  (by decide +kernel : ∀ t : Fin grid0.N, win0_3.index t 0 = 0 ∧ win0_3.index t 1 = t.val / 4 % 11)
theorem index4 : ∀ t : Fin cfg0.N, win0_4.index t 0 = t.val / 44 ∧ win0_4.index t 1 = t.val / 4 % 11 :=
  (by decide +kernel : ∀ t : Fin grid0.N, win0_4.index t 0 = t.val / 44 ∧ win0_4.index t 1 = t.val / 4 % 11)

/-- How many rows (columns) of a block lie inside its array. -/
theorem xsize1 : ∀ t : Fin cfg0.N, win0_1.xsize (grid0.coords t) 0 = min 1024 (11008 - t.val / 4 % 11 * 1024) ∧ win0_1.xsize (grid0.coords t) 1 = 1024 :=
  (by decide +kernel : ∀ t : Fin grid0.N, win0_1.xsize (grid0.coords t) 0 = min 1024 (11008 - t.val / 4 % 11 * 1024) ∧ win0_1.xsize (grid0.coords t) 1 = 1024)
theorem xsize2 : ∀ t : Fin cfg0.N, win0_2.xsize (grid0.coords t) 0 = 1 ∧ win0_2.xsize (grid0.coords t) 1 = min 1024 (11008 - t.val / 4 % 11 * 1024) :=
  (by decide +kernel : ∀ t : Fin grid0.N, win0_2.xsize (grid0.coords t) 0 = 1 ∧ win0_2.xsize (grid0.coords t) 1 = min 1024 (11008 - t.val / 4 % 11 * 1024))
theorem xsize3 : ∀ t : Fin cfg0.N, win0_3.xsize (grid0.coords t) 0 = 1 ∧ win0_3.xsize (grid0.coords t) 1 = min 1024 (11008 - t.val / 4 % 11 * 1024) :=
  (by decide +kernel : ∀ t : Fin grid0.N, win0_3.xsize (grid0.coords t) 0 = 1 ∧ win0_3.xsize (grid0.coords t) 1 = min 1024 (11008 - t.val / 4 % 11 * 1024))
theorem xsize4 : ∀ t : Fin cfg0.N, win0_4.xsize (grid0.coords t) 0 = 1024 ∧ win0_4.xsize (grid0.coords t) 1 = min 1024 (11008 - t.val / 4 % 11 * 1024) :=
  (by decide +kernel : ∀ t : Fin grid0.N, win0_4.xsize (grid0.coords t) 0 = 1024 ∧ win0_4.xsize (grid0.coords t) 1 = min 1024 (11008 - t.val / 4 % 11 * 1024))

theorem lt352 (t : Fin cfg0.N) : t.val < 352 := lt_of_lt_of_eq t.isLt (show cfg0.N = 352 from N_0)

/-- An entry of the activation block is the entry of the array at the block's offsets. -/
theorem iblk0_apply (c : Dev nD) (t : Fin cfg0.N) (r k : Fin 1024) :
    iblk m c 0 t (ix2 r k) = V m c main_arg0 (ix2 (rowX t.val r) (blkIdx pos4096 1024 (t.val % 4) k)) := by
  show V m c main_arg0 (((cfg0.win 0).blk t).view.emb (ix2 r k)) = _
  refine congrArg (V m c main_arg0) (funext fun a => Fin.ext ?_)
  have hN := lt352 t
  obtain ⟨h0, h1⟩ := index0 t
  match a with
  | ⟨0, _⟩ =>
    show win0_0.index t 0 * 1024 + 1 * r.val = (t.val / 44 * 1024 + r.val) % 8192
    rw [h0]; have := r.isLt; omega
  | ⟨1, _⟩ =>
    show win0_0.index t 1 * 1024 + 1 * k.val = (1024 * (t.val % 4) + k.val) % 4096
    rw [h1]; have := k.isLt; omega

/-- An entry of the weight block whose row exists is the entry of the array at the block's offsets, whatever the
    buffer holds on the rows past the array's end. -/
theorem fill1_apply (c : Dev nD) (t : Fin cfg0.N) (d : S1024x1024.Idx → Elt F .i32) (q k : Fin 1024) (hq : Valid t.val q) :
    (cfg0.win 1).fill (grid0.coords t) d (iblk m c 1 t) (ix2 q k)
      = V m c main_arg1 (ix2 (rowW t.val q) (blkIdx pos4096 1024 (t.val % 4) k)) := by
  obtain ⟨hs0, hs1⟩ := xsize1 t
  have hN := lt352 t
  obtain ⟨h0, h1⟩ := index1 t
  let j : ((cfg0.win 1).xblock (grid0.coords t)).Idx := fun (a : Fin 2) => match a with
    | ⟨0, _⟩ => ⟨q.val, by show q.val < win0_1.xsize (grid0.coords t) 0; rw [hs0]; exact lt_min q.isLt (by unfold Valid at hq; omega)⟩
    | ⟨1, _⟩ => ⟨k.val, by show k.val < win0_1.xsize (grid0.coords t) 1; rw [hs1]; exact k.isLt⟩
  have hj : (ix2 q k : S1024x1024.Idx) = (cfg0.win 1).xinj (grid0.coords t) j :=
    funext fun (a : Fin 2) => Fin.ext (by match a with | ⟨0, _⟩ => rfl | ⟨1, _⟩ => rfl)
  rw [hj, Window.fill_xinj]
  show V m c main_arg1 (((cfg0.win 1).blk t).view.emb j) = _
  refine congrArg (V m c main_arg1) (funext fun (a : Fin 2) => Fin.ext ?_)
  match a with
  | ⟨0, _⟩ =>
    show win0_1.index t 0 * 1024 + 1 * q.val = (t.val / 4 % 11 * 1024 + q.val) % 11008
    rw [h0]; unfold Valid at hq; omega
  | ⟨1, _⟩ =>
    show win0_1.index t 1 * 1024 + 1 * k.val = (1024 * (t.val % 4) + k.val) % 4096
    rw [h1]; have := k.isLt; omega

/-- An entry of the row of steps whose column exists. -/
theorem fill2_apply (c : Dev nD) (t : Fin cfg0.N) (d : S1x1024.Idx → Elt F .f32) (q : Fin 1024) (hq : Valid t.val q) :
    (cfg0.win 2).fill (grid0.coords t) d (iblk m c 2 t) (ix2 (0 : Fin 1) q)
      = V m c main_v1 (ix2 (0 : Fin 1) (rowW t.val q)) := by
  obtain ⟨hs0, hs1⟩ := xsize2 t
  have hN := lt352 t
  obtain ⟨h0, h1⟩ := index2 t
  let j : ((cfg0.win 2).xblock (grid0.coords t)).Idx := fun (a : Fin 2) => match a with
    | ⟨0, _⟩ => ⟨0, by show 0 < win0_2.xsize (grid0.coords t) 0; rw [hs0]; exact Nat.one_pos⟩
    | ⟨1, _⟩ => ⟨q.val, by show q.val < win0_2.xsize (grid0.coords t) 1; rw [hs1]; exact lt_min q.isLt (by unfold Valid at hq; omega)⟩
  have hj : (ix2 (0 : Fin 1) q : S1x1024.Idx) = (cfg0.win 2).xinj (grid0.coords t) j :=
    funext fun (a : Fin 2) => Fin.ext (by match a with | ⟨0, _⟩ => rfl | ⟨1, _⟩ => rfl)
  rw [hj, Window.fill_xinj]
  show V m c main_v1 (((cfg0.win 2).blk t).view.emb j) = _
  refine congrArg (V m c main_v1) (funext fun (a : Fin 2) => Fin.ext ?_)
  match a with
  | ⟨0, _⟩ =>
    show win0_2.index t 0 * 1 + 1 * 0 = 0
    rw [h0]
  | ⟨1, _⟩ =>
    show win0_2.index t 1 * 1024 + 1 * q.val = (t.val / 4 % 11 * 1024 + q.val) % 11008
    rw [h1]; unfold Valid at hq; omega

/-- An entry of the row of biases whose column exists. -/
theorem fill3_apply (c : Dev nD) (t : Fin cfg0.N) (d : S1x1024.Idx → Elt F .f32) (q : Fin 1024) (hq : Valid t.val q) :
    (cfg0.win 3).fill (grid0.coords t) d (iblk m c 3 t) (ix2 (0 : Fin 1) q)
      = V m c main_v0 (ix2 (0 : Fin 1) (rowW t.val q)) := by
  obtain ⟨hs0, hs1⟩ := xsize3 t
  have hN := lt352 t
  obtain ⟨h0, h1⟩ := index3 t
  let j : ((cfg0.win 3).xblock (grid0.coords t)).Idx := fun (a : Fin 2) => match a with
    | ⟨0, _⟩ => ⟨0, by show 0 < win0_3.xsize (grid0.coords t) 0; rw [hs0]; exact Nat.one_pos⟩
    | ⟨1, _⟩ => ⟨q.val, by show q.val < win0_3.xsize (grid0.coords t) 1; rw [hs1]; exact lt_min q.isLt (by unfold Valid at hq; omega)⟩
  have hj : (ix2 (0 : Fin 1) q : S1x1024.Idx) = (cfg0.win 3).xinj (grid0.coords t) j :=
    funext fun (a : Fin 2) => Fin.ext (by match a with | ⟨0, _⟩ => rfl | ⟨1, _⟩ => rfl)
  rw [hj, Window.fill_xinj]
  show V m c main_v0 (((cfg0.win 3).blk t).view.emb j) = _
  refine congrArg (V m c main_v0) (funext fun (a : Fin 2) => Fin.ext ?_)
  match a with
  | ⟨0, _⟩ =>
    show win0_3.index t 0 * 1 + 1 * 0 = 0
    rw [h0]
  | ⟨1, _⟩ =>
    show win0_3.index t 1 * 1024 + 1 * q.val = (t.val / 4 % 11 * 1024 + q.val) % 11008
    rw [h1]; unfold Valid at hq; omega

/-- The two rows are the argument vectors laid out as one-row matrices before the region. -/
theorem V_steps (c : Dev nD) (o : Fin 11008) : V m c main_v1 (ix2 (0 : Fin 1) o) = m ((c : Thread nD τ).loc main_arg2) (ix1 o) := by
  have e : (V m c main_v1 : S1x11008.Idx → Elt F .f32) = shapeCast S1x11008 (m ((c : Thread nD τ).loc main_arg2)) shapeCasts_S11008_S1x11008 := by
    dsimp only [V, hostOps0]; after_results; rfl
  rw [e]; exact shapeCast_a_1a_apply _ _ _ _
theorem V_biases (c : Dev nD) (o : Fin 11008) : V m c main_v0 (ix2 (0 : Fin 1) o) = m ((c : Thread nD τ).loc main_arg3) (ix1 o) := by
  have e : (V m c main_v0 : S1x11008.Idx → Elt F .f32) = shapeCast S1x11008 (m ((c : Thread nD τ).loc main_arg3)) shapeCasts_S11008_S1x11008 := by
    dsimp only [V, hostOps0]; after_results; rfl
  rw [e]; exact shapeCast_a_1a_apply _ _ _ _

end Cert.KernelIdeal.Hand

end
-- ==== Proof.KernData.lean ====
/-
  The accumulator carried along the contracted axis, and what the result array ends holding.

  Between the points of the grid the region keeps one invariant: after position `n` the accumulator holds, on every entry
  whose weight row exists, the sum of the products over the blocks `0 … n mod 4` of the contracted axis (nothing is said of
  the entries computed from weight rows past the array's end: the last weight block overhangs, and its buffer's tail
  holds words nothing names). Each point of the body re-establishes it: the first block of a run of four adds its products
  to zero, a later block to what the block before left. At the last block the body stores the accumulated dot products
  times the steps plus the biases; on the part of the block that is written back this is the layer's entry, so every
  block written back is the block of one whole-array function, and those blocks cover the result array.
-/
import proofs.«124493_j34883724378155_1_alg».proof.Proof.KernPieces
import proofs.«124493_j34883724378155_1_alg».proof.Proof.KernBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx BlockedSum

local notation "𝕄" => MT nD τ sig Unit (Elt Ideal) ℕ (UR sig nD τ) ℕ

variable (m : (ℓ : Loc nD τ sig) → Buf (Elt Ideal) ℓ) (ρ : Dev nD → PrngReg)

/-! ## The argument arrays as numbers, and the result block of a point -/

def XA (c : Dev nD) : Cert.Spec.SX.Idx → EReal := V m c main_arg0
def WA (c : Dev nD) : Cert.Spec.SW.Idx → EReal := sitofp (F := Ideal) .f32 (V m c main_arg1)
def SA (c : Dev nD) : Cert.Spec.SV.Idx → EReal := m ((c : Thread nD τ).loc main_arg2)
def BA (c : Dev nD) : Cert.Spec.SV.Idx → EReal := m ((c : Thread nD τ).loc main_arg3)

/-- The whole result array. -/
def resultA (c : Dev nD) : Cert.Spec.SO.Idx → EReal := Cert.Spec.layer (XA m c) (WA m c) (SA m c) (BA m c)

/-- The result block of point `t`, as a function on the whole staging block. -/
def outBlock (c : Dev nD) (t : Fin cfg0.N) : S1024x1024.Idx → EReal :=
  fun j => Cert.Spec.entry (XA m c) (WA m c) (SA m c) (BA m c) (rowX t.val (j 0)) (rowW t.val (j 1))

/-! ## The invariant -/

/-- Before position `n`: at the start the accumulator holds anything; afterwards what the position before left. -/
def PhiS (c : Dev nD) : (n : ℕ) → n ≤ cfg0.N → sProp 𝕄
  | 0, _ => Pipeline.ΦA spec0 c
  | n + 1, _ => iprop(iprop(∃ acc, ⌜AccOK (XA m c) (WA m c) n acc⌝ ∗ owns (c : Thread nD τ) accM fullShare acc) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ acc, ⌜AccOK (XA m c) (WA m c) n acc⌝ ∗ owns (c : Thread nD τ) accM fullShare acc) ∗ (∃ r, prngReg c r)) := rfl

theorem PhiS_pos (c : Dev nD) (n : ℕ) (h : n ≤ cfg0.N) (hz : n ≠ 0) :
    PhiS m c n h = iprop(iprop(∃ acc, ⌜AccOK (XA m c) (WA m c) (n - 1) acc⌝ ∗ owns (c : Thread nD τ) accM fullShare acc) ∗ (∃ r, prngReg c r)) := by
  cases n with
  | zero => exact absurd rfl hz
  | succ n => rfl

/-- At any position the accumulator holds something. -/
theorem PhiS_some (c : Dev nD) (n : ℕ) (h : n ≤ cfg0.N) :
    PhiS m c n h ⊢ iprop(iprop((∃ d, owns (c : Thread nD τ) accM fullShare d)) ∗ (∃ r, prngReg c r)) := by
  cases n with
  | zero => rw [PhiS_zero m c 0 h rfl, PhiA_eq]
  | succ n =>
    rw [PhiS_succ]
    iintro ⟨⟨%acc, %hacc, HS⟩, Hg⟩
    isplitl [HS]
    · iexists _; iexact HS
    iexact Hg

/-! ## The pipeline's proof data -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, h⟩ => (cfg0.win ⟨1, h⟩).fill (cfg0.grid.coords t) (Pipeline.Dat.unnamed (cfg := cfg0) ⟨1, h⟩ t) (iblk m c ⟨1, h⟩ t)
    | ⟨2, h⟩ => (cfg0.win ⟨2, h⟩).fill (cfg0.grid.coords t) (Pipeline.Dat.unnamed (cfg := cfg0) ⟨2, h⟩ t) (iblk m c ⟨2, h⟩ t)
    | ⟨3, h⟩ => (cfg0.win ⟨3, h⟩).fill (cfg0.grid.coords t) (Pipeline.Dat.unnamed (cfg := cfg0) ⟨3, h⟩ t) (iblk m c ⟨3, h⟩ t)
    | ⟨4, _⟩ => outBlock m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after4 (c : Dev nD) (t : Fin cfg0.N) : (dats m 0 c).after 4 t = outBlock m c t := by dsimp only [dats]

theorem before0 (c : Dev nD) (t : Fin cfg0.N) (d) : (dats m 0 c).before 0 t d = iblk m c 0 t :=
  before0_0_of m (dats m 0 c) (A_eq m c 0) (after0 m c) t d

theorem after1 (c : Dev nD) (t : Fin cfg0.N) : (dats m 0 c).after 1 t
    = (cfg0.win 1).fill (cfg0.grid.coords t) (Pipeline.Dat.unnamed (cfg := cfg0) 1 t) (iblk m c 1 t) := by dsimp only [dats]; rfl

theorem hclip1 : ∀ t t' : Fin cfg0.N, (cfg0.win 1).index t = (cfg0.win 1).index t' →
    (cfg0.win 1).clip (cfg0.grid.coords t) = (cfg0.win 1).clip (cfg0.grid.coords t') := fun t t' h => funext fun a => by
  show Pipeline.Clip.of (cc0_transform_1 (grid0.coords t) a) _ _ = Pipeline.Clip.of (cc0_transform_1 (grid0.coords t') a) _ _
  rw [show cc0_transform_1 (grid0.coords t) a = cc0_transform_1 (grid0.coords t') a from congrFun h a]

theorem before1 (c : Dev nD) (t : Fin cfg0.N) (d) :
    (dats m 0 c).before 1 t d = (cfg0.win 1).fill (cfg0.grid.coords t) d (iblk m c 1 t) :=
  ((dats m 0 c).before_in_eq_fetched 1 rfl (fun _ => rfl) hclip1
    (fun t => by rw [after1]; exact ((cfg0.win 1).cut_fill _ _ _).trans (by unfold Dat.blockOf iblk; rw [A_eq])) t d).trans
    (by unfold Dat.fetched Dat.blockOf iblk; rw [A_eq])

theorem after2 (c : Dev nD) (t : Fin cfg0.N) : (dats m 0 c).after 2 t
    = (cfg0.win 2).fill (cfg0.grid.coords t) (Pipeline.Dat.unnamed (cfg := cfg0) 2 t) (iblk m c 2 t) := by dsimp only [dats]; rfl

theorem hclip2 : ∀ t t' : Fin cfg0.N, (cfg0.win 2).index t = (cfg0.win 2).index t' →
    (cfg0.win 2).clip (cfg0.grid.coords t) = (cfg0.win 2).clip (cfg0.grid.coords t') := fun t t' h => funext fun a => by
  show Pipeline.Clip.of (cc0_transform_2 (grid0.coords t) a) _ _ = Pipeline.Clip.of (cc0_transform_2 (grid0.coords t') a) _ _
  rw [show cc0_transform_2 (grid0.coords t) a = cc0_transform_2 (grid0.coords t') a from congrFun h a]

theorem before2 (c : Dev nD) (t : Fin cfg0.N) (d) :
    (dats m 0 c).before 2 t d = (cfg0.win 2).fill (cfg0.grid.coords t) d (iblk m c 2 t) :=
  ((dats m 0 c).before_in_eq_fetched 2 rfl (fun _ => rfl) hclip2
    (fun t => by rw [after2]; exact ((cfg0.win 2).cut_fill _ _ _).trans (by unfold Dat.blockOf iblk; rw [A_eq])) t d).trans
    (by unfold Dat.fetched Dat.blockOf iblk; rw [A_eq])

theorem after3 (c : Dev nD) (t : Fin cfg0.N) : (dats m 0 c).after 3 t
    = (cfg0.win 3).fill (cfg0.grid.coords t) (Pipeline.Dat.unnamed (cfg := cfg0) 3 t) (iblk m c 3 t) := by dsimp only [dats]; rfl

theorem hclip3 : ∀ t t' : Fin cfg0.N, (cfg0.win 3).index t = (cfg0.win 3).index t' →
    (cfg0.win 3).clip (cfg0.grid.coords t) = (cfg0.win 3).clip (cfg0.grid.coords t') := fun t t' h => funext fun a => by
  show Pipeline.Clip.of (cc0_transform_3 (grid0.coords t) a) _ _ = Pipeline.Clip.of (cc0_transform_3 (grid0.coords t') a) _ _
  rw [show cc0_transform_3 (grid0.coords t) a = cc0_transform_3 (grid0.coords t') a from congrFun h a]

theorem before3 (c : Dev nD) (t : Fin cfg0.N) (d) :
    (dats m 0 c).before 3 t d = (cfg0.win 3).fill (cfg0.grid.coords t) d (iblk m c 3 t) :=
  ((dats m 0 c).before_in_eq_fetched 3 rfl (fun _ => rfl) hclip3
    (fun t => by rw [after3]; exact ((cfg0.win 3).cut_fill _ _ _).trans (by unfold Dat.blockOf iblk; rw [A_eq])) t d).trans
    (by unfold Dat.fetched Dat.blockOf iblk; rw [A_eq])

end Cert.KernelIdeal.Hand

end
-- ==== Proof.KernStep.lean ====
/-
  Each point of the grid re-establishes the accumulator's invariant, and the last point of a run of four leaves the
  layer's entries in the part of the result block that is written back.

  The body finds the activation block whole, and the weight block, the row of steps and the row of biases on the rows
  (columns) inside their arrays, with anything past the arrays' end. At the first block of a run the accumulator holds
  anything and ends at the block's products; at a later block it holds the sum over the blocks before and ends at the
  sum over the blocks so far; the result buffer is handed back untouched except at the last block, where it ends, on
  every entry whose weight row exists, at the accumulated dot product times the step plus the bias.
-/
import proofs.«124493_j34883724378155_1_alg».proof.Proof.KernData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx BlockedSum

local notation "𝕄" => MT nD τ sig Unit (Elt Ideal) ℕ (UR sig nD τ) ℕ

variable (m : (ℓ : Loc nD τ sig) → Buf (Elt Ideal) ℓ) (ρ : Dev nD → PrngReg)

/-! ## The blocks the body finds -/

/-- The weight block, the row of steps and the row of biases as the body finds them: the fetched part inside the
    array, `d` past its end. -/
abbrev X1 (c : Dev nD) (t : Fin cfg0.N) (d) := (cfg0.win 1).fill (cfg0.grid.coords t) d (iblk m c 1 t)
abbrev X2 (c : Dev nD) (t : Fin cfg0.N) (d) := (cfg0.win 2).fill (cfg0.grid.coords t) d (iblk m c 2 t)
abbrev X3 (c : Dev nD) (t : Fin cfg0.N) (d) := (cfg0.win 3).fill (cfg0.grid.coords t) d (iblk m c 3 t)

theorem xblock0 (c : Dev nD) (t : Fin cfg0.N) : XBlock (XA m c) t.val (iblk m c 0 t) :=
  fun r k => iblk0_apply m c t r k

theorem wblock1 (c : Dev nD) (t : Fin cfg0.N) (d) : WBlock (WA m c) t.val (X1 m c t d) :=
  fun q k hq => congrArg (FloatOps.sitofp (F := Ideal) .f32) (fill1_apply m c t d q k hq)

theorem steps2 (c : Dev nD) (t : Fin cfg0.N) (d) (q : Fin 1024) (hq : Valid t.val q) :
    X2 m c t d (ix2 (0 : Fin 1) q) = SA m c (ix1 (rowW t.val q)) :=
  (fill2_apply m c t d q hq).trans (V_steps m c _)

theorem biases3 (c : Dev nD) (t : Fin cfg0.N) (d) (q : Fin 1024) (hq : Valid t.val q) :
    X3 m c t d (ix2 (0 : Fin 1) q) = BA m c (ix1 (rowW t.val q)) :=
  (fill3_apply m c t d q hq).trans (V_biases m c _)

/-- At a last block, what the body stores agrees with the layer's block on the part that is written back. -/
theorem out_cut (c : Dev nD) (t : Fin cfg0.N) (h3 : t.val % 4 = 3) (acc : Vec Ideal S1024x1024 .f32) (d2 d3)
    (ha : AccOK (XA m c) (WA m c) t.val acc) :
    (cfg0.win 4).cut (cfg0.grid.coords t) (k0_pay3 (F := Ideal) acc (X2 m c t d2) (X3 m c t d3))
      = (cfg0.win 4).cut (cfg0.grid.coords t) (outBlock m c t) := by
  funext j
  show k0_pay3 (F := Ideal) acc (X2 m c t d2) (X3 m c t d3) ((cfg0.win 4).xinj (cfg0.grid.coords t) j)
    = outBlock m c t ((cfg0.win 4).xinj (cfg0.grid.coords t) j)
  obtain ⟨hs0, hs1⟩ := xsize4 t
  have hN := lt352 t
  have hj1 : (j (1 : Fin 2)).val < win0_4.xsize (grid0.coords t) 1 := (j (1 : Fin 2)).isLt
  generalize hyy : ((cfg0.win 4).xinj (cfg0.grid.coords t) j : S1024x1024.Idx) = y
  have e1 : (y (1 : Fin 2)).val = (j (1 : Fin 2)).val := by rw [← hyy]
  have hq : Valid t.val (y 1) := by
    unfold Valid
    rw [hs1] at hj1
    have := lt_of_lt_of_le hj1 (min_le_right _ _)
    show t.val / 4 % 11 * 1024 + (y (1 : Fin 2)).val < 11008
    rw [e1]; omega
  have hy : y = ix2 (n0 := 1024) (n1 := 1024) (y 0) (y 1) := eq_ix2 y
  have key := out_last h3 ha (fun q hq => steps2 m c t d2 q hq) (fun q hq => biases3 m c t d3 q hq) (y 0) (y 1) hq
  rw [hy]
  exact key

/-! ## What the body obligation states of each window -/

theorem leaves0 (c : Dev nD) (t : Fin cfg0.N) :
    (dats m 0 c).leaves 0 t = owns (c : Thread nD τ) (ms0 t) fullShare (iblk m c 0 t) := by
  unfold Dat.leaves; rw [live0 t, after0]

theorem leaves1 (c : Dev nD) (t : Fin cfg0.N) :
    (dats m 0 c).leaves 1 t = iprop(∃ d, owns (c : Thread nD τ) (ms1 t) fullShare (X1 m c t d)) := by
  unfold Dat.leaves; rw [live1 t]
  show (iprop(∃ d, owns (c : Thread nD τ) (ms1 t) fullShare ((cfg0.win 1).fill (cfg0.grid.coords t) d ((cfg0.win 1).cut (cfg0.grid.coords t) ((dats m 0 c).after 1 t)))) : sProp 𝕄) = _
  simp only [after1, Window.cut_fill]
  rfl

theorem leaves2 (c : Dev nD) (t : Fin cfg0.N) :
    (dats m 0 c).leaves 2 t = iprop(∃ d, owns (c : Thread nD τ) (ms2 t) fullShare (X2 m c t d)) := by
  unfold Dat.leaves; rw [live2 t]
  show (iprop(∃ d, owns (c : Thread nD τ) (ms2 t) fullShare ((cfg0.win 2).fill (cfg0.grid.coords t) d ((cfg0.win 2).cut (cfg0.grid.coords t) ((dats m 0 c).after 2 t)))) : sProp 𝕄) = _
  simp only [after2, Window.cut_fill]
  rfl

theorem leaves3 (c : Dev nD) (t : Fin cfg0.N) :
    (dats m 0 c).leaves 3 t = iprop(∃ d, owns (c : Thread nD τ) (ms3 t) fullShare (X3 m c t d)) := by
  unfold Dat.leaves; rw [live3 t]
  show (iprop(∃ d, owns (c : Thread nD τ) (ms3 t) fullShare ((cfg0.win 3).fill (cfg0.grid.coords t) d ((cfg0.win 3).cut (cfg0.grid.coords t) ((dats m 0 c).after 3 t)))) : sProp 𝕄) = _
  simp only [after3, Window.cut_fill]
  rfl

theorem leaves4_last (c : Dev nD) (t : Fin cfg0.N) (h : isLast (grid0.coords t)) :
    (dats m 0 c).leaves 4 t = iprop(∃ d, owns (c : Thread nD τ) (ms4 t) fullShare ((cfg0.win 4).fill (cfg0.grid.coords t) d ((cfg0.win 4).cut (cfg0.grid.coords t) (outBlock m c t)))) := by
  unfold Dat.leaves; rw [live4 t h]
  show (iprop(∃ d, owns (c : Thread nD τ) (ms4 t) fullShare ((cfg0.win 4).fill (cfg0.grid.coords t) d ((cfg0.win 4).cut (cfg0.grid.coords t) ((dats m 0 c).after 4 t)))) : sProp 𝕄) = _
  rw [after4]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t)

set_option maxHeartbeats 1600000 in
/-- The first block of a run of four. -/
theorem sound_first (c : Dev nD) (t : Fin cfg0.N) (h0 : t.val % 4 = 0) :
    bodyPre m c t ⊢ wp frame (wpE (defs₀ (F := Ideal)) Variants.none c none) Set.univ (bodyAt0 t) (fun _ => bodyPost m c t) := by
  have hc0 : isFirst (grid0.coords t) := (isFirst_iff t).mpr h0
  have hc1 : ¬isLast (grid0.coords t) := fun h => by have := (isLast_iff t).mp h; omega
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, Dat.leaves_idle (dats m 0 c) 4 t (idle4 t hc1) (noFlush4 t hc1)]
  rw [PhiS_castSucc m c t]
  refine (sep_mono (PhiS_some m c _ _) .rfl).trans ?_
  iintro ⟨⟨HS, Hg⟩, Ho, ⟨%d0, H0⟩, ⟨%d1, H1⟩, ⟨%d2, H2⟩, ⟨%d3, H3⟩, ⟨%d4, H4⟩⟩
  have hcan := canonFirst (F := Ideal) c (grid0.coords t) (ms0 t) (hs0 t) (ms1 t) (hs1 t) (ms2 t) (hs2 t) (ms3 t) (hs3 t) (ms4 t) (hs4 t) accM (Memref.isWhole_whole _) hc0 hc1 (iblk m c 0 t) (X1 m c t d1)
  have hcov := coverFirst (F := Ideal) c (grid0.coords t) (ms0 t) (hs0 t) (ms1 t) (hs1 t) (ms2 t) (hs2 t) (ms3 t) (hs3 t) (ms4 t) (hs4 t) accM (Memref.isWhole_whole _) hc0 hc1 (iblk m c 0 t) (X1 m c t d1)
  iapply ((runFirst (F := Ideal) c (grid0.coords t) (ms0 t) (hs0 t) (ms1 t) (hs1 t) (ms2 t) (hs2 t) (ms3 t) (hs3 t) (ms4 t) (hs4 t) accM (Memref.isWhole_whole _) hc0 hc1 (iblk m c 0 t) (X1 m c t d1)).2 _ _ _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%f, HS⟩⟩
  isplitl [HS Hg]
  · isplitl [HS]
    · iexists (k0_pay2 (F := Ideal) (iblk m c 0 t) (X1 m c t d1) (k0_pay1 (F := Ideal)))
      isplitr
      · ipureintro; exact acc_first h0 (xblock0 m c t) (wblock1 m c t d1)
      · unfold owns; iexists _; isplitr
        swap; · iexact HS
        ipureintro; exact (View.read_writes_eq_canon _ _ _ hcov).trans hcan
    iexact Hg
  isplitl [Ho]; · iexact Ho
  isplitl [H0]; · iexact H0
  isplitl [H1]; · iexists _; iexact H1
  isplitl [H2]; · iexists _; iexact H2
  isplitl [H3]; · iexists _; iexact H3
  iexists _; iexact H4

set_option maxHeartbeats 1600000 in
/-- A middle block. -/
theorem sound_middle (c : Dev nD) (t : Fin cfg0.N) (h0 : ¬t.val % 4 = 0) (h3 : ¬t.val % 4 = 3) :
    bodyPre m c t ⊢ wp frame (wpE (defs₀ (F := Ideal)) Variants.none c none) Set.univ (bodyAt0 t) (fun _ => bodyPost m c t) := by
  have hc0 : ¬isFirst (grid0.coords t) := fun h => h0 ((isFirst_iff t).mp h)
  have hc1 : ¬isLast (grid0.coords t) := fun h => h3 ((isLast_iff t).mp h)
  have hz : t.val ≠ 0 := fun e => h0 (by rw [e])
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, Dat.leaves_idle (dats m 0 c) 4 t (idle4 t hc1) (noFlush4 t hc1)]
  rw [PhiS_castSucc m c t, PhiS_pos m c _ _ hz]
  iintro ⟨⟨⟨%xs, %hxs, HS⟩, Hg⟩, Ho, ⟨%d0, H0⟩, ⟨%d1, H1⟩, ⟨%d2, H2⟩, ⟨%d3, H3⟩, ⟨%d4, H4⟩⟩
  have hcan := canonMiddle (F := Ideal) c (grid0.coords t) (ms0 t) (hs0 t) (ms1 t) (hs1 t) (ms2 t) (hs2 t) (ms3 t) (hs3 t) (ms4 t) (hs4 t) accM (Memref.isWhole_whole _) hc0 hc1 (iblk m c 0 t) (X1 m c t d1) xs
  have hcov := coverMiddle (F := Ideal) c (grid0.coords t) (ms0 t) (hs0 t) (ms1 t) (hs1 t) (ms2 t) (hs2 t) (ms3 t) (hs3 t) (ms4 t) (hs4 t) accM (Memref.isWhole_whole _) hc0 hc1 (iblk m c 0 t) (X1 m c t d1) xs
  iapply ((runMiddle (F := Ideal) c (grid0.coords t) (ms0 t) (hs0 t) (ms1 t) (hs1 t) (ms2 t) (hs2 t) (ms3 t) (hs3 t) (ms4 t) (hs4 t) accM (Memref.isWhole_whole _) hc0 hc1 (iblk m c 0 t) (X1 m c t d1) xs).2 _ _ _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%f, HS⟩⟩
  isplitl [HS Hg]
  · isplitl [HS]
    · iexists (k0_pay2 (F := Ideal) (iblk m c 0 t) (X1 m c t d1) xs)
      isplitr
      · ipureintro; exact acc_next h0 (xblock0 m c t) (wblock1 m c t d1) hxs
      · unfold owns; iexists _; isplitr
        swap; · iexact HS
        ipureintro; exact (View.read_writes_eq_canon _ _ _ hcov).trans hcan
    iexact Hg
  isplitl [Ho]; · iexact Ho
  isplitl [H0]; · iexact H0
  isplitl [H1]; · iexists _; iexact H1
  isplitl [H2]; · iexists _; iexact H2
  isplitl [H3]; · iexists _; iexact H3
  iexists _; iexact H4

set_option maxHeartbeats 1600000 in
/-- The last block of a run of four. -/
theorem sound_last (c : Dev nD) (t : Fin cfg0.N) (h3 : t.val % 4 = 3) :
    bodyPre m c t ⊢ wp frame (wpE (defs₀ (F := Ideal)) Variants.none c none) Set.univ (bodyAt0 t) (fun _ => bodyPost m c t) := by
  have h0 : ¬t.val % 4 = 0 := by omega
  have hc0 : ¬isFirst (grid0.coords t) := fun h => h0 ((isFirst_iff t).mp h)
  have hc1 : isLast (grid0.coords t) := (isLast_iff t).mpr h3
  have hz : t.val ≠ 0 := fun e => h0 (by rw [e])
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4_last m c t hc1]
  rw [PhiS_castSucc m c t, PhiS_pos m c _ _ hz]
  iintro ⟨⟨⟨%xs, %hxs, HS⟩, Hg⟩, Ho, ⟨%d0, H0⟩, ⟨%d1, H1⟩, ⟨%d2, H2⟩, ⟨%d3, H3⟩, ⟨%d4, H4⟩⟩
  have hacc : AccOK (XA m c) (WA m c) t.val (k0_pay2 (F := Ideal) (iblk m c 0 t) (X1 m c t d1) xs) :=
    acc_next h0 (xblock0 m c t) (wblock1 m c t d1) hxs
  have hcanS := canonLastAcc (F := Ideal) c (grid0.coords t) (ms0 t) (hs0 t) (ms1 t) (hs1 t) (ms2 t) (hs2 t) (ms3 t) (hs3 t) (ms4 t) (hs4 t) accM (Memref.isWhole_whole _) hc0 hc1 (iblk m c 0 t) (X1 m c t d1) (X2 m c t d2) (X3 m c t d3) xs
  have hcovS := coverLastAcc (F := Ideal) c (grid0.coords t) (ms0 t) (hs0 t) (ms1 t) (hs1 t) (ms2 t) (hs2 t) (ms3 t) (hs3 t) (ms4 t) (hs4 t) accM (Memref.isWhole_whole _) hc0 hc1 (iblk m c 0 t) (X1 m c t d1) (X2 m c t d2) (X3 m c t d3) xs
  have hcanO := canonLastOut (F := Ideal) c (grid0.coords t) (ms0 t) (hs0 t) (ms1 t) (hs1 t) (ms2 t) (hs2 t) (ms3 t) (hs3 t) (ms4 t) (hs4 t) accM (Memref.isWhole_whole _) hc0 hc1 (iblk m c 0 t) (X1 m c t d1) (X2 m c t d2) (X3 m c t d3) xs
  have hcovO := coverLastOut (F := Ideal) c (grid0.coords t) (ms0 t) (hs0 t) (ms1 t) (hs1 t) (ms2 t) (hs2 t) (ms3 t) (hs3 t) (ms4 t) (hs4 t) accM (Memref.isWhole_whole _) hc0 hc1 (iblk m c 0 t) (X1 m c t d1) (X2 m c t d2) (X3 m c t d3) xs
  iapply ((runLast (F := Ideal) c (grid0.coords t) (ms0 t) (hs0 t) (ms1 t) (hs1 t) (ms2 t) (hs2 t) (ms3 t) (hs3 t) (ms4 t) (hs4 t) accM (Memref.isWhole_whole _) hc0 hc1 (iblk m c 0 t) (X1 m c t d1) (X2 m c t d2) (X3 m c t d3) xs).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%fo, H4⟩, ⟨%f, HS⟩⟩
  isplitl [HS Hg]
  · isplitl [HS]
    · iexists (k0_pay2 (F := Ideal) (iblk m c 0 t) (X1 m c t d1) xs)
      isplitr
      · ipureintro; exact hacc
      · unfold owns; iexists _; isplitr
        swap; · iexact HS
        ipureintro; exact (View.read_writes_eq_canon _ _ _ hcovS).trans hcanS
    iexact Hg
  isplitl [Ho]; · iexact Ho
  isplitl [H0]; · iexact H0
  isplitl [H1]; · iexists _; iexact H1
  isplitl [H2]; · iexists _; iexact H2
  isplitl [H3]; · iexists _; iexact H3
  iexists (k0_pay3 (F := Ideal) (k0_pay2 (F := Ideal) (iblk m c 0 t) (X1 m c t d1) xs) (X2 m c t d2) (X3 m c t d3))
  rw [(cfg0.win 4).fill_congr_cut (cfg0.grid.coords t) (out_cut m c t h3 _ d2 d3 hacc)]
  unfold owns; iexists _; isplitr
  swap; · iexact H4
  ipureintro; exact (View.read_writes_eq_canon _ _ _ hcovO).trans hcanO

/-- The library's body obligation, at every point. -/
theorem body_obligation (c : Dev nD) : BodyObligationLoose (dats m 0 c) (defs₀ (F := Ideal)) Variants.none () Set.univ := fun t => by
  rw [bigSep_W0, bigSep_W0]
  by_cases h0 : t.val % 4 = 0
  · exact sound_first m c t h0
  · by_cases h3 : t.val % 4 = 3
    · exact sound_last m c t h3
    · exact sound_middle m c t h0 h3

end Cert.KernelIdeal.Hand

end
-- ==== Proof.KernValue.lean ====
/-
  The run of the idealized kernel, read: the result array ends holding the layer, entry by entry.

  The result block of point `t` is written back at the last point of each run of four, cut at the array's end; what is
  written is the layer's block there (rows `(t / 44)·1024 + r`, columns `((t / 4) mod 11)·1024 + q`), and the 8 x 11
  blocks written back cover the result array: entry `(i, j)` lies in the block written at point
  `(i / 1024)·44 + (j / 1024)·4 + 3`.
-/
import proofs.«124493_j34883724378155_1_alg».proof.Proof.KernStep
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx BlockedSum

local notation "𝕄" => MT nD τ sig Unit (Elt Ideal) ℕ (UR sig nD τ) ℕ

variable (m : (ℓ : Loc nD τ sig) → Buf (Elt Ideal) ℓ) (ρ : Dev nD → PrngReg)

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_some m c _ _

set_option backward.isDefEq.respectTransparency.types false in
/-- Every weakly fair execution of @main terminates, with every array of the pipeline at what the library computes
    from the proof data and every other buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-! ## The result array -/

/-- What a last point writes back is the layer's block there. -/
theorem flushed_eq (c : Dev nD) (t : Fin cfg0.N) (hf : (cfg0.win 4).flush t = true) :
    (dats m 0 c).flushed 4 t = ((cfg0.win 4).blk t).view.read (Elt Ideal) (resultA m c) := by
  show (cfg0.win 4).cut (grid0.coords t) ((dats m 0 c).after 4 t) = _
  rw [after4]
  funext j
  show outBlock m c t ((cfg0.win 4).xinj (cfg0.grid.coords t) j) = resultA m c (((cfg0.win 4).blk t).view.emb j)
  obtain ⟨hs0, hs1⟩ := xsize4 t
  obtain ⟨hi0, hi1⟩ := index4 t
  have hN := lt352 t
  have hj0 : (j (0 : Fin 2)).val < win0_4.xsize (grid0.coords t) 0 := (j (0 : Fin 2)).isLt
  have hj1 : (j (1 : Fin 2)).val < win0_4.xsize (grid0.coords t) 1 := (j (1 : Fin 2)).isLt
  rw [hs0] at hj0; rw [hs1] at hj1
  have hj1' := lt_of_lt_of_le hj1 (min_le_right _ _)
  have e0 : rowX t.val (((cfg0.win 4).xinj (cfg0.grid.coords t) j) 0) = (((cfg0.win 4).blk t).view.emb j) 0 := Fin.ext (by
    show (t.val / 44 * 1024 + (j (0 : Fin 2)).val) % 8192 = win0_4.index t 0 * 1024 + 1 * (j (0 : Fin 2)).val
    rw [hi0]; omega)
  have e1 : rowW t.val (((cfg0.win 4).xinj (cfg0.grid.coords t) j) 1) = (((cfg0.win 4).blk t).view.emb j) 1 := Fin.ext (by
    show (t.val / 4 % 11 * 1024 + (j (1 : Fin 2)).val) % 11008 = win0_4.index t 1 * 1024 + 1 * (j (1 : Fin 2)).val
    rw [hi1]; omega)
  unfold outBlock resultA Cert.Spec.layer
  exact congrArg₂ (Cert.Spec.entry (XA m c) (WA m c) (SA m c) (BA m c)) e0 e1

/-- The blocks written back cover the result array. -/
theorem covered (c : Dev nD) (i : S8192x11008.Idx) :
    ∃ t : Fin cfg0.N, (cfg0.win 4).flush t = true ∧ i ∈ ((cfg0.win 4).blk t).view.set := by
  have h0 : (i 0 : Nat) < 8192 := (i 0).isLt
  have h1 : (i 1 : Nat) < 11008 := (i 1).isLt
  have hlt : (i 0 : Nat) / 1024 * 44 + (i 1 : Nat) / 1024 * 4 + 3 < cfg0.N := by rw [show cfg0.N = 352 from N_0]; omega
  refine ⟨⟨(i 0 : Nat) / 1024 * 44 + (i 1 : Nat) / 1024 * 4 + 3, hlt⟩, (flush0_4 _).mpr (by show ((i 0 : Nat) / 1024 * 44 + (i 1 : Nat) / 1024 * 4 + 3) % 4 = 3; omega), ?_⟩
  generalize ht : (⟨(i 0 : Nat) / 1024 * 44 + (i 1 : Nat) / 1024 * 4 + 3, hlt⟩ : Fin cfg0.N) = t
  have htv : t.val = (i 0 : Nat) / 1024 * 44 + (i 1 : Nat) / 1024 * 4 + 3 := by rw [← ht]
  obtain ⟨hs0, hs1⟩ := xsize4 t
  obtain ⟨hi0, hi1⟩ := index4 t
  show i ∈ ((View.whole main_v2).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + win0_4.xsize (grid0.coords t) 0
    rw [hi0, hs0, htv]
    show ((i 0 : Nat) / 1024 * 44 + (i 1 : Nat) / 1024 * 4 + 3) / 44 * 1024 ≤ (i 0 : Nat) ∧ (i 0 : Nat) < ((i 0 : Nat) / 1024 * 44 + (i 1 : Nat) / 1024 * 4 + 3) / 44 * 1024 + 1024
    omega
  | ⟨1, _⟩ =>
    show win0_4.index t 1 * win0_4.size 1 ≤ (i 1 : Nat) ∧ (i 1 : Nat) < win0_4.index t 1 * win0_4.size 1 + win0_4.xsize (grid0.coords t) 1
    rw [hi1, hs1, htv]
    show ((i 0 : Nat) / 1024 * 44 + (i 1 : Nat) / 1024 * 4 + 3) / 4 % 11 * 1024 ≤ (i 1 : Nat) ∧ (i 1 : Nat) < ((i 0 : Nat) / 1024 * 44 + (i 1 : Nat) / 1024 * 4 + 3) / 4 % 11 * 1024 + min 1024 (11008 - ((i 0 : Nat) / 1024 * 44 + (i 1 : Nat) / 1024 * 4 + 3) / 4 % 11 * 1024)
    have e : ((i 0 : Nat) / 1024 * 44 + (i 1 : Nat) / 1024 * 4 + 3) / 4 % 11 = (i 1 : Nat) / 1024 := by omega
    rw [e]
    refine ⟨by omega, ?_⟩
    rcases Nat.le_total 1024 (11008 - (i 1 : Nat) / 1024 * 1024) with h | h
    · rw [Nat.min_eq_left h]; omega
    · rw [Nat.min_eq_right h]; omega

/-- So the result array ends holding the layer. -/
theorem final_out (c : Dev nD) : (dats m 0 c).arrAt 4 cfg0.N = resultA m c :=
  (dats m 0 c).arrAt_eq_of_cover 4 (resultA m c) (flushed_eq m c) (covered c)

/-- The layer as a function of the argument arrays as launched. -/
theorem resultA_eq (c : Dev nD) : resultA m c = Cert.Spec.layer (m ((c : Thread nD τ).loc main_arg0))
    (sitofp (F := Ideal) .f32 (m ((c : Thread nD τ).loc main_arg1))) (m ((c : Thread nD τ).loc main_arg2)) (m ((c : Thread nD τ).loc main_arg3)) := by
  unfold resultA XA WA SA BA
  rw [V_main_arg0, V_main_arg1]

/-- The run, read: the result array at the layer of the arguments, the arguments unchanged. -/
theorem run : θ_run defs (onTc (τ := τ) (main (F := Ideal))) ⟨m, fun _ => 0, ρ⟩ fun r => ∀ c : Dev nD,
      r.2.mem ((c.tc : Thread nD τ).loc main_v2) = Cert.Spec.layer (m ((c : Thread nD τ).loc main_arg0))
        (sitofp (F := Ideal) .f32 (m ((c : Thread nD τ).loc main_arg1))) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(((h c).1 4).trans (final_out m c)).trans (resultA_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Hand

end
-- ==== Proof.BitsCases.lean ====
/-
  The grid of this kernel is 8 x 11 x 4: a block of 1024 rows of the activations, a block of 1024 weight rows, and one
  of the four blocks of 1024 positions of the contracted axis, the last coordinate moving fastest. So point `t` is at
  position `t mod 4` of its run of four. The body branches twice on that position: at position 0 it first clears its
  accumulator, and at position 3 it scales the accumulator, adds the bias and stores the result block. This file decides
  both conditions over the grid, says where the result window is idle (every position but 3) and not written back,
  and names the staging buffers the body is called with.
-/
import proofs.«124493_j34883724378155_1_alg».proof.Proof.Gen.Kernel.Frame
import proofs.«124493_j34883724378155_1_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two conditions -/

/-- "This is the first block of the contracted axis" (the accumulator is cleared), as the body computes it. -/
abbrev isFirst (i : grid0.Coords) : Prop := (Scalar.cmpi .ne (Scalar.extui (Scalar.cmpi .eq (BitVec.ofNat 32 (i 2).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "This is the last block of the contracted axis" (the result block is stored), as the body computes it. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last block the body stores nothing into the result window, -/
theorem idle4 : ∀ t : Fin cfg0.N, ¬isLast (grid0.coords t) → cfg0.idle 4 (grid0.coords t) = true := by decide +kernel
/-- and the result block is not written back there; -/
theorem noFlush4 : ∀ t : Fin cfg0.N, ¬isLast (grid0.coords t) → (cfg0.win 4).flush t = false := by decide +kernel
/-- at the last block it stores the whole block, which is then written back. -/
theorem live4 : ∀ t : Fin cfg0.N, isLast (grid0.coords t) → cfg0.idle 4 (grid0.coords t) = false := by decide +kernel
theorem flush4 : ∀ t : Fin cfg0.N, isLast (grid0.coords t) → (cfg0.win 4).flush t = true := by decide +kernel

/-! ## The staging buffers at a point -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)
/-- The accumulator: a whole buffer of the kernel's own, beside the windows. -/
abbrev accM : Memref sig .tc .vmem S1024x1024 .f32 := Memref.whole cc0_scratch0
abbrev accV : View sig .tc .vmem S1024x1024 .f32 := accM.view
/-- One staging buffer of the result window, through which its contents are stated. -/
abbrev outV : View sig .tc .vmem S1024x1024 .f32 := (Memref.whole cc0_stg4_0 : Memref sig .tc .vmem S1024x1024 .f32).view

/-- What the region may use beside the windows: the accumulator at some contents and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.BitsRunA.lean ====
/-
  The body at the first block of the contracted axis, on any staging buffers: it clears the accumulator, multiplies the
  activation block by the transposed weight block, adds the product to the cleared accumulator and stores the sum
  back. The result window is not touched. The list of stores the accumulator ends with is found by running the body.
-/
import proofs.«124493_j34883724378155_1_alg».proof.Proof.BitsCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the accumulator ends with at a first block (newest first), with the proof that the body runs: the four
    input buffers and the result buffer are handed back as they were found. -/
noncomputable def runFirst (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : isFirst i) (hc1 : ¬isLast i)
    (x0 : Vec F S1024x1024 .f32) (x1 : Vec F S1024x1024 .i32) :
    { LS : List (View.Piece (Elt F) S1024x1024 .f32) //
      ∀ (x2 x3 : Vec F S1x1024 .f32) (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__matmul_kernel i arg3 harg3 arg4 harg4 arg5 harg5 arg6 harg6 arg7 harg7 arg8 harg8) K } := by
  refine ⟨?_, fun x2 x3 xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.BitsRunB.lean ====
/-
  The body at a middle block of the contracted axis (neither the first nor the last), on any staging buffers: it
  multiplies the activation block by the transposed weight block, adds the product to what the accumulator held and
  stores the sum back. The result window is not touched.
-/
import proofs.«124493_j34883724378155_1_alg».proof.Proof.BitsRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the accumulator ends with at a middle block, from what it held (`xs`), with the proof that the body runs. -/
noncomputable def runMiddle (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : ¬isLast i)
    (x0 : Vec F S1024x1024 .f32) (x1 : Vec F S1024x1024 .i32) (xs : Vec F S1024x1024 .f32) :
    { LS : List (View.Piece (Elt F) S1024x1024 .f32) //
      ∀ (x2 x3 : Vec F S1x1024 .f32) (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc0__matmul_kernel i arg3 harg3 arg4 harg4 arg5 harg5 arg6 harg6 arg7 harg7 arg8 harg8) K } := by
  refine ⟨?_, fun x2 x3 xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.BitsRunC.lean ====
/-
  The body at the last block of the contracted axis, on any staging buffers: it adds the last product to the
  accumulator, stores the sum back, then multiplies the accumulator by the row of steps, adds the row of biases and
  stores that into the result window's buffer.
-/
import proofs.«124493_j34883724378155_1_alg».proof.Proof.BitsRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the result buffer and the accumulator end with at a last block, from what the accumulator held (`xs`),
    with the proof that the body runs. -/
noncomputable def runLast (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬isFirst i) (hc1 : isLast i)
    (x0 : Vec F S1024x1024 .f32) (x1 : Vec F S1024x1024 .i32) (x2 x3 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__matmul_kernel i arg3 harg3 arg4 harg4 arg5 harg5 arg6 harg6 arg7 harg7 arg8 harg8) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2
    obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.Hand

end
-- ==== Proof.BitsBody.lean ====
/-
  The frame of the word-level program: it terminates and leaves its four argument arrays as it found them.

  The kernel runs over a grid of 8 x 11 x 4 points through five windows: a block of the activations, a block of the
  integer weights, a row of steps, a row of biases, and a block of the result. The blocks of all but the first may
  overhang their arrays (11008 = 10 * 1024 + 768), so their transfers are cut at the array's end and the tail of a
  staging buffer holds words nothing names. Nothing here says what the result array holds: the result window is
  forgotten, and the invariant carried from point to point is only that the accumulator holds some contents.

  At every point each input window's buffer holds its block on the part inside the array, whether or not it was
  fetched there (unfetched, the block index has not moved); the body, in each of its three cases by the position along
  the contracted axis, hands the input buffers back as it found them; so the arrays, which only a write-back of the
  result window could change, end as they were.
-/
import proofs.«124493_j34883724378155_1_alg».proof.Proof.BitsRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The result window is forgotten: the frame says nothing of what the result array holds. -/
def forgets : Fin 5 → Bool := fun w => w.val == 4

/-- The proof data on core `c`: the arrays as the region finds them; after the body at point `t` the activation
    window's buffer at its block, each of the three windows whose blocks may overhang their array at its block on the
    part inside the array and at unnamed words beyond it, the result window's buffer unnamed; the invariant the
    accumulator at some contents and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => (cfg0.win ⟨1, h⟩).fill (cfg0.grid.coords t) (Pipeline.Dat.unnamed (cfg := cfg0) ⟨1, h⟩ t) (iblk m c ⟨1, h⟩ t)
    | ⟨2, h⟩ => (cfg0.win ⟨2, h⟩).fill (cfg0.grid.coords t) (Pipeline.Dat.unnamed (cfg := cfg0) ⟨2, h⟩ t) (iblk m c ⟨2, h⟩ t)
    | ⟨3, h⟩ => (cfg0.win ⟨3, h⟩).fill (cfg0.grid.coords t) (Pipeline.Dat.unnamed (cfg := cfg0) ⟨3, h⟩ t) (iblk m c ⟨3, h⟩ t)
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t
    = (cfg0.win 1).fill (cfg0.grid.coords t) (Pipeline.Dat.unnamed (cfg := cfg0) 1 t) (iblk m c 1 t) := by dsimp only [dats]; rfl
theorem after0_2 (c : Dev nD) (t : Fin cfg0.N) : (dats m 0 c).after 2 t
    = (cfg0.win 2).fill (cfg0.grid.coords t) (Pipeline.Dat.unnamed (cfg := cfg0) 2 t) (iblk m c 2 t) := by dsimp only [dats]; rfl
theorem after0_3 (c : Dev nD) (t : Fin cfg0.N) : (dats m 0 c).after 3 t
    = (cfg0.win 3).fill (cfg0.grid.coords t) (Pipeline.Dat.unnamed (cfg := cfg0) 3 t) (iblk m c 3 t) := by dsimp only [dats]; rfl

/-! ## What the body finds in the input windows' buffers -/

/-- The activation window's buffer holds its block at every point. -/
theorem before0_0 (c : Dev nD) (t : Fin cfg0.N) (d) : (dats m 0 c).before 0 t d = iblk m c 0 t :=
  before0_0_of m (dats m 0 c) (A_eq m c 0) (after0_0 m c) t d

/-- The cut of a weight block at the array's end is a function of the block index. -/
theorem hclip1 : ∀ t t' : Fin cfg0.N, (cfg0.win 1).index t = (cfg0.win 1).index t' →
    (cfg0.win 1).clip (cfg0.grid.coords t) = (cfg0.win 1).clip (cfg0.grid.coords t') := fun t t' h => funext fun a => by
  show Pipeline.Clip.of (cc0_transform_1 (grid0.coords t) a) _ _ = Pipeline.Clip.of (cc0_transform_1 (grid0.coords t') a) _ _
  rw [show cc0_transform_1 (grid0.coords t) a = cc0_transform_1 (grid0.coords t') a from congrFun h a]

/-- The weight window's buffer holds, at every point, its block on the part inside the array (fetched there or not:
    unfetched, the block index has not moved) and some words beyond it. -/
theorem before0_1 (c : Dev nD) (t : Fin cfg0.N) (d) :
    (dats m 0 c).before 1 t d = (cfg0.win 1).fill (cfg0.grid.coords t) d (iblk m c 1 t) :=
  ((dats m 0 c).before_in_eq_fetched 1 rfl (fun _ => rfl) hclip1
    (fun t => by rw [after0_1]; exact ((cfg0.win 1).cut_fill _ _ _).trans (by unfold Dat.blockOf iblk; rw [A_eq])) t d).trans
    (by unfold Dat.fetched Dat.blockOf iblk; rw [A_eq])

/-- A buffer left by a list of stores over any prior contents is owned at some contents. -/
theorem some_of_writes (c : Thread nD τ) {sp : Space} {sh : Shape} {e : EltTy} (M : Memref sig c.2.kind sp sh e)
    (L : List (View.Piece (Elt F) sh e)) :
    (iprop(∃ f, M.view.loc c ↦[M.view.set]{fullShare} M.view.writes (Elt F) f L) : sProp 𝕄)
      ⊢ iprop(∃ X, owns c M fullShare X) := by
  iintro ⟨%f, H⟩
  iexists _
  iapply (owns_intro c M fullShare _)
  iexact H

/-- The cut of a step row at the array's end is a function of the block index. -/
theorem hclip2 : ∀ t t' : Fin cfg0.N, (cfg0.win 2).index t = (cfg0.win 2).index t' →
    (cfg0.win 2).clip (cfg0.grid.coords t) = (cfg0.win 2).clip (cfg0.grid.coords t') := fun t t' h => funext fun a => by
  show Pipeline.Clip.of (cc0_transform_2 (grid0.coords t) a) _ _ = Pipeline.Clip.of (cc0_transform_2 (grid0.coords t') a) _ _
  rw [show cc0_transform_2 (grid0.coords t) a = cc0_transform_2 (grid0.coords t') a from congrFun h a]

/-- The step window's buffer holds, at every point, its block on the part inside the array and some words beyond it. -/
theorem before0_2 (c : Dev nD) (t : Fin cfg0.N) (d) :
    (dats m 0 c).before 2 t d = (cfg0.win 2).fill (cfg0.grid.coords t) d (iblk m c 2 t) :=
  ((dats m 0 c).before_in_eq_fetched 2 rfl (fun _ => rfl) hclip2
    (fun t => by rw [after0_2]; exact ((cfg0.win 2).cut_fill _ _ _).trans (by unfold Dat.blockOf iblk; rw [A_eq])) t d).trans
    (by unfold Dat.fetched Dat.blockOf iblk; rw [A_eq])

/-- The cut of a bias row at the array's end is a function of the block index. -/
theorem hclip3 : ∀ t t' : Fin cfg0.N, (cfg0.win 3).index t = (cfg0.win 3).index t' →
    (cfg0.win 3).clip (cfg0.grid.coords t) = (cfg0.win 3).clip (cfg0.grid.coords t') := fun t t' h => funext fun a => by
  show Pipeline.Clip.of (cc0_transform_3 (grid0.coords t) a) _ _ = Pipeline.Clip.of (cc0_transform_3 (grid0.coords t') a) _ _
  rw [show cc0_transform_3 (grid0.coords t) a = cc0_transform_3 (grid0.coords t') a from congrFun h a]

/-- The bias window's buffer holds, at every point, its block on the part inside the array and some words beyond it. -/
theorem before0_3 (c : Dev nD) (t : Fin cfg0.N) (d) :
    (dats m 0 c).before 3 t d = (cfg0.win 3).fill (cfg0.grid.coords t) d (iblk m c 3 t) :=
  ((dats m 0 c).before_in_eq_fetched 3 rfl (fun _ => rfl) hclip3
    (fun t => by rw [after0_3]; exact ((cfg0.win 3).cut_fill _ _ _).trans (by unfold Dat.blockOf iblk; rw [A_eq])) t d).trans
    (by unfold Dat.fetched Dat.blockOf iblk; rw [A_eq])

/-- On the part inside the array, what the body leaves in each clipped window's buffer is the block. -/
theorem cut_after0_1 (c : Dev nD) (t : Fin cfg0.N) :
    (cfg0.win 1).cut (cfg0.grid.coords t) ((dats m 0 c).after 1 t) = iblk m c 1 t := by
  rw [after0_1]; exact (cfg0.win 1).cut_fill _ _ _
theorem cut_after0_2 (c : Dev nD) (t : Fin cfg0.N) :
    (cfg0.win 2).cut (cfg0.grid.coords t) ((dats m 0 c).after 2 t) = iblk m c 2 t := by
  rw [after0_2]; exact (cfg0.win 2).cut_fill _ _ _
theorem cut_after0_3 (c : Dev nD) (t : Fin cfg0.N) :
    (cfg0.win 3).cut (cfg0.grid.coords t) ((dats m 0 c).after 3 t) = iblk m c 3 t := by
  rw [after0_3]; exact (cfg0.win 3).cut_fill _ _ _

/-! ## The body obligation -/

/-- What the body is called with at point `t`: the invariant, nothing owed, each input window's buffer at what it
    holds there, the result window's buffer at any contents; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ X, owns (c : Thread nD τ) (ms4 t) fullShare X))

/-- and what it returns: the activation window's buffer at its block, each clipped input window's buffer at its block
    on the part inside the array, the result window's buffer at any contents. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare ((cfg0.win 1).fill (cfg0.grid.coords t) d ((cfg0.win 1).cut (cfg0.grid.coords t) ((dats m 0 c).after 1 t))))
    ∗ (∃ d, owns (c : Thread nD τ) (ms2 t) fullShare ((cfg0.win 2).fill (cfg0.grid.coords t) d ((cfg0.win 2).cut (cfg0.grid.coords t) ((dats m 0 c).after 2 t))))
    ∗ (∃ d, owns (c : Thread nD τ) (ms3 t) fullShare ((cfg0.win 3).fill (cfg0.grid.coords t) d ((cfg0.win 3).cut (cfg0.grid.coords t) ((dats m 0 c).after 3 t))))
    ∗ (∃ X, owns (c : Thread nD τ) (ms4 t) fullShare X))

set_option maxHeartbeats 1600000 in
/-- The body at any point, by the position along the contracted axis: the input windows' buffers hold their blocks, the
    run of the case applies, the accumulator passes through the invariant at some contents, nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0]
  rw [cut_after0_1 m c t, cut_after0_2 m c t, cut_after0_3 m c t]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq]
  by_cases h0 : t.val % 4 = 0
  · -- the first block of the contracted axis: the accumulator is handed over at whatever it holds
    have h3 : ¬t.val % 4 = 3 := by omega
    iintro ⟨⟨HS, Hg⟩, Ho, ⟨%d0, H0⟩, ⟨%d1, H1⟩, ⟨%d2, H2⟩, ⟨%d3, H3⟩, ⟨%d4, H4⟩⟩
    iapply ((runFirst c (grid0.coords t) (ms0 t) (hs0 t) (ms1 t) (hs1 t) (ms2 t) (hs2 t) (ms3 t) (hs3 t) (ms4 t) (hs4 t) accM (Memref.isWhole_whole _)
      ((isFirst_iff t).mpr h0) (fun h => h3 ((isLast_iff t).mp h)) (iblk m c 0 t) ((cfg0.win 1).fill (cfg0.grid.coords t) d1 (iblk m c 1 t))).2
      ((cfg0.win 2).fill (cfg0.grid.coords t) d2 (iblk m c 2 t)) ((cfg0.win 3).fill (cfg0.grid.coords t) d3 (iblk m c 3 t)) d4 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iapply (some_of_writes (c : Thread nD τ) accM _); iexact HS
      iexact Hg
    isplitl [Ho]; · iexact Ho
    isplitl [H0]; · iexact H0
    isplitl [H1]; · iexists _; iexact H1
    isplitl [H2]; · iexists _; iexact H2
    isplitl [H3]; · iexists _; iexact H3
    iexists _; iexact H4
  · by_cases h3 : t.val % 4 = 3
    · -- the last block: the result window's buffer is handed over at whatever it holds and taken back written
      iintro ⟨⟨⟨%ds, HS⟩, Hg⟩, Ho, ⟨%d0, H0⟩, ⟨%d1, H1⟩, ⟨%d2, H2⟩, ⟨%d3, H3⟩, H4⟩
      iapply ((runLast c (grid0.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h3) (iblk m c 0 t) ((cfg0.win 1).fill (cfg0.grid.coords t) d1 (iblk m c 1 t))
        ((cfg0.win 2).fill (cfg0.grid.coords t) d2 (iblk m c 2 t)) ((cfg0.win 3).fill (cfg0.grid.coords t) d3 (iblk m c 3 t)) ds).2.2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iapply (some_of_writes (c : Thread nD τ) accM _); iexact HS
        iexact Hg
      isplitl [Ho]; · iexact Ho
      isplitl [H0]; · iexact H0
      isplitl [H1]; · iexists _; iexact H1
      isplitl [H2]; · iexists _; iexact H2
      isplitl [H3]; · iexists _; iexact H3
      iapply (some_of_writes (c : Thread nD τ) (ms4 t) _); iexact H4
    · -- a middle block: the accumulator is handed over at what it holds, the result window's buffer is not touched
      iintro ⟨⟨⟨%ds, HS⟩, Hg⟩, Ho, ⟨%d0, H0⟩, ⟨%d1, H1⟩, ⟨%d2, H2⟩, ⟨%d3, H3⟩, ⟨%d4, H4⟩⟩
      iapply ((runMiddle c (grid0.coords t) (ms0 t) (hs0 t) (ms1 t) (hs1 t) (ms2 t) (hs2 t) (ms3 t) (hs3 t) (ms4 t) (hs4 t) accM (Memref.isWhole_whole _)
        (fun h => h0 ((isFirst_iff t).mp h)) (fun h => h3 ((isLast_iff t).mp h)) (iblk m c 0 t) ((cfg0.win 1).fill (cfg0.grid.coords t) d1 (iblk m c 1 t)) ds).2
        ((cfg0.win 2).fill (cfg0.grid.coords t) d2 (iblk m c 2 t)) ((cfg0.win 3).fill (cfg0.grid.coords t) d3 (iblk m c 3 t)) d4 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iapply (some_of_writes (c : Thread nD τ) accM _); iexact HS
        iexact Hg
      isplitl [Ho]; · iexact Ho
      isplitl [H0]; · iexact H0
      isplitl [H1]; · iexists _; iexact H1
      isplitl [H2]; · iexists _; iexact H2
      isplitl [H3]; · iexists _; iexact H3
      iexists _; iexact H4

/-- The library's body obligation in its form for windows whose blocks may overhang their arrays, the result window
    forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and in every final state each input array of the pipeline holds what it held
    when the region was entered (nothing is said of the result array), and so does every other buffer outside the
    region's scope. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The four argument arrays end unchanged, from any run to the relational post: the activations and the weights are
    staged inputs, whose arrays no transfer writes; the steps and the biases are in no window (the region stages their
    reshaped copies), and nothing before the region writes any of the four. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun ((rdat c).ArrAt_in 0 rfl _) _) ((h c).1 0)).trans ((hA c 0).trans (V_main_arg0 m c)),
      (Eq.mp (congrFun ((rdat c).ArrAt_in 1 rfl _) _) ((h c).1 1)).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-- The frame of the program, at any float instance: it terminates and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_rel m ρ (fun c => (dats m 0 c).toRForget forgets) (A_eq m) (run_main m ρ)

end Cert.Kernel.Hand

end
-- ==== Proof.LibRowQuant.lean ====
/-
  Per-row symmetric quantization followed by a matrix product: the arithmetic, with no program in sight.

  A row `r` of reals has a step `s(r) = max_k |r_k| / 127` (taken to be `1` when that is `0`) and quantized entries
  `q(r)_k = clamp(round(r_k / s(r)), -127, 127)`.  One program multiplies the quantized rows by the weights and
  scales each product row afterwards, `(Σ_k q_k · w_k) · s`; the other scales the quantized row first,
  `Σ_k (q_k · s) · w_k`.  Over the extended reals the two agree when the entries are finite: the quantized entries
  lie in `[-127, 127]`, the step of a finite row is finite, and for real numbers a factor moves across a finite sum.
-/
import Idealize.ShloMosaic.PureOps.Ideal
import Idealize.ShloMosaic.PureOps.Ideal.Laws
import Idealize.ShloMosaic.Lib.ValueIdx

noncomputable section

namespace Cert.QuantSpec

open Idealize.ShloMosaic Idealize.ShloMosaic.ValueIdx

/-! ## The constants the two programs spell -/

theorem ofBits_127 : Ideal.ofBits .f32 0x42FE0000#32 = ((127 : ℝ) : EReal) := by
  simp [Ideal.ofBits, Ideal.ieee, -EReal.coe_mul]; norm_num

theorem ofBits_neg127 : Ideal.ofBits .f32 0xC2FE0000#32 = ((-127 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

/-! ## One row -/

/-- The greatest absolute value of a row: the fold of `max` from minus infinity over `|r_k| = max r_k (-r_k)`. -/
def absMax {b : ℕ} (row : Fin b → EReal) : EReal :=
  (Finset.univ : Finset (Fin b)).fold max (Ideal.ofBits .f32 0xFF800000#32) (fun k => max (row k) (-(row k)))

/-- The row's quantization step: its greatest absolute value over 127, replaced by 1 when that quotient is 0. -/
def stepOf {b : ℕ} (row : Fin b → EReal) : EReal :=
  Scalar.select (Ideal.cmp .oeq (Ideal.div (absMax row) (Ideal.ofBits .f32 0x42FE0000#32)) (Ideal.ofBits .f32 0x00000000#32))
    (Ideal.ofBits .f32 0x3F800000#32) (Ideal.div (absMax row) (Ideal.ofBits .f32 0x42FE0000#32))

/-- The row's quantized entry `k`: the entry over the step, rounded to the nearest integer (ties to even), clamped to
    `[-127, 127]`. -/
def quantOf {b : ℕ} (row : Fin b → EReal) (k : Fin b) : EReal :=
  min (Ideal.ofBits .f32 0x42FE0000#32)
    (max (Ideal.ofBits .f32 0xC2FE0000#32) (Ideal.liftRound Ideal.roundHalfEven (Ideal.div (row k) (stepOf row))))

/-- A quantized entry is a real number, whatever the row: it lies between -127 and 127. -/
theorem quantOf_real {b : ℕ} (row : Fin b → EReal) (k : Fin b) : ∃ r : ℝ, quantOf row k = (r : EReal) := by
  refine ⟨(quantOf row k).toReal, (EReal.coe_toReal ?_ ?_).symm⟩
  · refine ne_top_of_le_ne_top (EReal.coe_ne_top 127) ?_
    unfold quantOf; rw [ofBits_127]; exact min_le_left _ _
  · refine ne_bot_of_le_ne_bot (EReal.coe_ne_bot (-127)) ?_
    unfold quantOf; rw [ofBits_127, ofBits_neg127]
    exact le_min (EReal.coe_le_coe_iff.mpr (by norm_num)) (le_max_left _ _)

/-- The greatest absolute value of a nonempty row of reals is a real number. -/
theorem absMax_real {b : ℕ} (hb : 0 < b) (row : Fin b → EReal) (h : ∀ k, ∃ r : ℝ, row k = (r : EReal)) :
    ∃ r : ℝ, absMax row = (r : EReal) := by
  choose row' hrow using h
  refine ⟨(absMax row).toReal, (EReal.coe_toReal ?_ ?_).symm⟩
  · refine ne_of_lt ?_
    unfold absMax
    rw [Finset.fold_max_lt]
    refine ⟨by rw [ofBits_negInf]; exact bot_lt_top, fun k _ => ?_⟩
    rw [hrow k, ← EReal.coe_neg]; exact max_lt (EReal.coe_lt_top _) (EReal.coe_lt_top _)
  · refine ne_of_gt ?_
    unfold absMax
    rw [Finset.lt_fold_max]
    refine Or.inr ⟨⟨0, hb⟩, Finset.mem_univ _, ?_⟩
    rw [hrow]; exact lt_max_of_lt_left (EReal.bot_lt_coe _)

/-- The step of a nonempty row of reals is a real number. -/
theorem stepOf_real {b : ℕ} (hb : 0 < b) (row : Fin b → EReal) (h : ∀ k, ∃ r : ℝ, row k = (r : EReal)) :
    ∃ r : ℝ, stepOf row = (r : EReal) := by
  obtain ⟨a, ha⟩ := absMax_real hb row h
  have hd : Ideal.div (absMax row) (Ideal.ofBits .f32 0x42FE0000#32) = ((a * (1 / 127) : ℝ) : EReal) := by
    rw [ofBits_127, Ideal.div_coe (by norm_num : (127 : ℝ) ≠ 0), ha, ← EReal.coe_mul]
  unfold stepOf Scalar.select
  rw [hd]
  split
  · exact ⟨1, ofBits_one⟩
  · exact ⟨_, rfl⟩

/-! ## Moving the step across the sum -/

/-- The coercion of the reals into the extended reals commutes with finite sums. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- For real entries, scaling a dot product afterwards is scaling one factor of every term first. -/
theorem scale_across_sum {K : ℕ} (q w : Fin K → EReal) (s : EReal) (hq : ∀ k, ∃ r : ℝ, q k = (r : EReal))
    (hw : ∀ k, ∃ r : ℝ, w k = (r : EReal)) (hs : ∃ r : ℝ, s = (r : EReal)) :
    (∑ k, q k * w k) * s = ∑ k, (q k * s) * w k := by
  choose q' hq' using hq
  choose w' hw' using hw
  obtain ⟨s', rfl⟩ := hs
  simp only [hq', hw', ← EReal.coe_mul, ← coe_sum]
  rw [Finset.sum_mul]
  exact congrArg _ (Finset.sum_congr rfl fun k _ => by ring)

/-! ## The two programs' results, entry by entry -/

/-- A matrix of extended reals, indexed as the programs' arrays are. -/
abbrev Mat (a b : ℕ) := (⟨2, ![a, b]⟩ : Shape).Idx → EReal

/-- Row `n` of a matrix. -/
def rowOf {a b : ℕ} (x : Mat a b) (n : Fin a) : Fin b → EReal := fun k => x (ix2 n k)

/-- Entry `(n, j)` as the kernel computes it: quantized row `n` against weight row `j`, the product scaled by the
    row's step, plus the bias. -/
def kernelForm {a b o : ℕ} (x : Mat a b) (w : Mat o b) (bias : (⟨1, ![o]⟩ : Shape).Idx → EReal) (n : Fin a) (j : Fin o) : EReal :=
  (∑ k : Fin b, quantOf (rowOf x n) k * w (ix2 j k)) * stepOf (rowOf x n) + bias (ix1 j)

/-- Entry `(n, j)` as the reference computes it: the dequantized row `n` against weight row `j`, plus the bias. -/
def refForm {a b o : ℕ} (x : Mat a b) (w : Mat o b) (bias : (⟨1, ![o]⟩ : Shape).Idx → EReal) (n : Fin a) (j : Fin o) : EReal :=
  (∑ k : Fin b, (quantOf (rowOf x n) k * stepOf (rowOf x n)) * w (ix2 j k)) + bias (ix1 j)

/-- On finite inputs the two forms agree. -/
theorem kernelForm_eq_refForm {a b o : ℕ} (hb : 0 < b) (x : Mat a b) (w : Mat o b) (bias : (⟨1, ![o]⟩ : Shape).Idx → EReal)
    (hx : ∀ i, ∃ r : ℝ, x i = (r : EReal)) (hw : ∀ i, ∃ r : ℝ, w i = (r : EReal)) (n : Fin a) (j : Fin o) :
    kernelForm x w bias n j = refForm x w bias n j := by
  unfold kernelForm refForm
  rw [scale_across_sum (fun k => quantOf (rowOf x n) k) (fun k => w (ix2 j k)) (stepOf (rowOf x n))
    (fun k => quantOf_real _ k) (fun k => hw _) (stepOf_real hb _ fun k => hx _)]

end Cert.QuantSpec

end
-- ==== Proof.RefSide.lean ====
/-
  The reference program's result is the layer, entry by entry over the extended reals.

  The reference scales every weight by its row's step before the dot product,

      out (t, o) = (Σ_i x (t, i) · (w (o, i) · s (o))) + b (o),

  where `w (o, i)` is the integer weight read as a number.  The layer scales the dot product once,
  `(Σ_i x (t, i) · w (o, i)) · s (o) + b (o)`.  The two agree when every `x (t, i)` and every `s (o)` is a real
  number: an integer read as a number is always a real, and for real numbers a common factor moves across a finite
  sum (over the extended reals it does not: `(1 + (-1)) · ⊤ = 0` while `1 · ⊤ + (-1) · ⊤ = ⊤ + ⊥ = ⊥`).  The bias may
  be anything, since it is added to both sides unchanged.
-/
import proofs.«124493_j34883724378155_1_alg».proof.Proof.Gen.ReferenceIdeal.Read
import proofs.«124493_j34883724378155_1_alg».proof.Proof.Spec
import proofs.«124493_j34883724378155_1_alg».proof.Proof.LibRowQuant

noncomputable section

namespace Cert.RefBridge

open Cert.ReferenceIdeal Cert.ReferenceIdeal.Read Idealize.ShloMosaic Idealize.ShloMosaic.ValueIdx

/-! ## Where the reference reads its operands, by coordinates -/

/-- Term `k` of entry `(t, o)` of the product reads the activations at `(t, k)` … -/
theorem lidx_at (t : Fin 8192) (o : Fin 11008) (k : Fin 4096) : lidx_main_v4 (ix2 t o) k = ix2 t k :=
  funext fun a => Fin.ext (by match a with | ⟨0, _⟩ => rfl | ⟨1, _⟩ => rfl)

/-- … and the scaled weights at `(o, k)`. -/
theorem ridx_at (t : Fin 8192) (o : Fin 11008) (k : Fin 4096) : ridx_main_v4 (ix2 t o) k = ix2 o k :=
  funext fun a => Fin.ext (by match a with | ⟨0, _⟩ => rfl | ⟨1, _⟩ => rfl)

/-- The step broadcast along the rows of the weight matrix reads, at `(o, k)`, the step of row `o`. -/
theorem sidx_at (o : Fin 11008) (k : Fin 4096) : idx_main_v1 (idx_main_v2 (ix2 o k)) = ix1 o :=
  funext fun a => Fin.ext (by match a with | ⟨0, _⟩ => rfl)

/-- The bias broadcast along the columns of the result reads, at `(t, o)`, the bias of row `o`. -/
theorem bidx_at (t : Fin 8192) (o : Fin 11008) : idx_main_v5 (idx_main_v6 (ix2 t o)) = ix1 o :=
  funext fun a => Fin.ext (by match a with | ⟨0, _⟩ => rfl)

/-! ## The reference is the layer -/

/-- On real activations and real steps the reference's result is the layer of the activations, the integer weights
    read as numbers, the steps and the biases. -/
theorem ref_is_layer (x0 : (⟨S8192x4096, .f32⟩ : BufTy).Contents (Elt Ideal)) (x1 : (⟨S11008x4096, .i32⟩ : BufTy).Contents (Elt Ideal))
    (x2 x3 : (⟨S11008, .f32⟩ : BufTy).Contents (Elt Ideal))
    (hx : ∀ i, ∃ r : ℝ, x0 i = (r : EReal)) (hs : ∀ i, ∃ r : ℝ, x2 i = (r : EReal)) :
    Cert.ReferenceIdeal.Read.val_main_v7 (F := Ideal) x0 x1 x2 x3 = Cert.Spec.layer x0 (sitofp (F := Ideal) .f32 x1) x2 x3 := by
  funext j
  obtain ⟨t, o, rfl⟩ : ∃ (t : Fin 8192) (o : Fin 11008), j = ix2 t o := ⟨j 0, j 1, eq_ix2 j⟩
  -- entry (t, o) of the reference, read back through its eight operations
  rw [val_main_v7_apply, val_main_v4_apply, val_main_v6_apply, val_main_v5_apply]
  simp only [val_main_v3_apply, val_main_v0_apply, val_main_v2_apply, val_main_v1_apply]
  simp only [lidx_at, ridx_at, sidx_at, bidx_at]
  rw [Cert.Spec.layer_apply]
  unfold Cert.Spec.entry
  -- over the extended reals the product and the sum are `*` and `+`
  show (∑ k : Fin 4096, x0 (ix2 t k) * ((FloatOps.sitofp (F := Ideal) .f32 (x1 (ix2 o k)) : EReal) * x2 (ix1 o))) + x3 (ix1 o)
      = (∑ k : Fin 4096, x0 (ix2 t k) * (FloatOps.sitofp (F := Ideal) .f32 (x1 (ix2 o k)) : EReal)) * x2 (ix1 o) + x3 (ix1 o)
  -- the step of row `o` moves across the sum: every factor is a real number
  rw [Cert.QuantSpec.scale_across_sum (fun k => x0 (ix2 t k)) (fun k => (FloatOps.sitofp (F := Ideal) .f32 (x1 (ix2 o k)) : EReal))
    (x2 (ix1 o)) (fun k => hx _) (fun k => ⟨_, rfl⟩) (hs _)]
  refine congrArg (· + x3 (ix1 o)) (Finset.sum_congr rfl fun k _ => ?_)
  -- x · (w · s) = (x · s) · w
  rw [mul_comm (FloatOps.sitofp (F := Ideal) .f32 (x1 (ix2 o k)) : EReal) (x2 (ix1 o)), ← mul_assoc]

end Cert.RefBridge

end
-- ==== Proof.Finite.lean ====
/-
  From the precondition to "every entry is a real number".

  The precondition is the conjunction of three statements, one for the activations, one for the steps and one for
  the biases, each saying that every entry `v` of the array has `|v| < +∞`, the conjunction over the entries taken by
  an `and`-reduction from `1`.  Over the extended reals `|v|` is `max v (-v)`, which is `+∞` at both infinities, so
  `|v| < +∞` leaves exactly the real numbers.  (The integer weights carry no condition: an integer is always finite.)
-/
import proofs.«124493_j34883724378155_1_alg».proof.Pre_finite_inputs
import Idealize.ShloMosaic.Lib.ReduceAll
import Idealize.ShloMosaic.Lib.ValueIdx
import Idealize.ShloMosaic.PureOps.Ideal.Laws

noncomputable section

namespace Cert.Finite

open Cert.Pre_finite_inputs Idealize.ShloMosaic Idealize.ShloMosaic.ValueIdx

/-- The scalar shape has one index. -/
instance : Subsingleton S_.Idx := ⟨fun a b => funext fun d => d.elim0⟩

/-- The word `0x7F800000` denotes plus infinity. -/
theorem ofBits_posInf : Ideal.ofBits .f32 0x7F800000#32 = (⊤ : EReal) := by
  simp [Ideal.ofBits, Ideal.ieee]

/-- An extended real whose absolute value is strictly below plus infinity is a real number. -/
theorem real_of_abs_lt_inf (x : EReal)
    (h : Ideal.cmp .olt (max x (-x)) (Ideal.ofBits .f32 0x7F800000#32) = 1#1) : ∃ r : ℝ, x = (r : EReal) := by
  rw [ofBits_posInf] at h
  induction x using EReal.rec with
  | bot => simp [Ideal.cmp] at h
  | top => simp [Ideal.cmp] at h
  | coe r => exact ⟨r, rfl⟩

/-- Under the precondition every activation, every step and every bias is a real number. -/
theorem finite_of_pre [Facts] (a0 : (⟨S8192x4096, .f32⟩ : BufTy).Contents (Elt Ideal)) (a1 : (⟨S11008x4096, .i32⟩ : BufTy).Contents (Elt Ideal))
    (a2 a3 : (⟨S11008, .f32⟩ : BufTy).Contents (Elt Ideal))
    (h : Cert.Pre_finite_inputs.fn (F := Ideal) a0 a1 a2 a3 = (fun _ => 1#1)) :
    (∀ i, ∃ r : ℝ, a0 i = (r : EReal)) ∧ (∀ i, ∃ r : ℝ, a2 i = (r : EReal)) ∧ (∀ i, ∃ r : ℝ, a3 i = (r : EReal)) := by
  -- the predicate's one entry, as the conjunction of the three reductions
  have h0 := congrFun h ValueIdx.ix0
  dsimp only [fn] at h0
  obtain ⟨h01, h3⟩ := IntOp.andi_eq_one.1 h0
  obtain ⟨h1, h2⟩ := IntOp.andi_eq_one.1 h01
  -- a reduction by `and` that came out 1 met a 1 at every entry: `|v| < +∞` there
  refine ⟨fun i => ?_, fun i => ?_, fun i => ?_⟩
  · exact real_of_abs_lt_inf (a0 i) (Host.reduce_andi_all _ _ _ _ ix0 h1 i)
  · exact real_of_abs_lt_inf (a2 i) (Host.reduce_andi_all _ _ _ _ ix0 h2 i)
  · exact real_of_abs_lt_inf (a3 i) (Host.reduce_andi_all _ _ _ _ ix0 h3 i)

end Cert.Finite

end
-- ==== Proof.lean ====
/-
  A linear layer with integer weights and one step per weight row: for activations `x` (8192 x 4096), integer weights
  `w` (11008 x 4096), steps `s` and biases `b` (11008 each), the result is
      out (t, o) = (Σ_i x (t, i) · w (o, i)) · s (o) + b (o).

  The kernel visits the result in blocks of 1024 x 1024 and the contracted axis in four blocks of 1024, adding each
  block's products to an accumulator that it clears at the first block; at the fourth block it multiplies the total by
  the step of each column and adds its bias. The reference first scales every weight, `w (o, i) · s (o)`, contracts
  once and adds the bias. Over the extended reals a change of float format is the identity, a sum taken block by block
  is the sum, and for finite `x` and `s` (the integers are finite) the factor `s (o)` moves across the finite sum:
  both programs compute the same function of their arguments.

  The eleventh block of weight rows overhangs the array (11008 = 10·1024 + 768): its fetch and the write-back of the
  matching result columns are cut at the array's end. Entries the kernel computes from rows past the end never reach
  the result array, and nothing is claimed of them.

  The frames: the word-level kernel runs with its result window left unnamed; the idealized kernel's frame is its value
  run with the result dropped, and so is the reference's.
-/
import proofs.«124493_j34883724378155_1_alg».proof.Defs
import proofs.«124493_j34883724378155_1_alg».proof.Proof.Gen.Kernel
import proofs.«124493_j34883724378155_1_alg».proof.Proof.Gen.KernelIdeal
import proofs.«124493_j34883724378155_1_alg».proof.Proof.Gen.ReferenceIdeal
import proofs.«124493_j34883724378155_1_alg».proof.Proof.Gen.Pre_finite_inputs
import proofs.«124493_j34883724378155_1_alg».proof.Proof.Gen.ReferenceIdeal.Run
import proofs.«124493_j34883724378155_1_alg».proof.Proof.Gen.ReferenceIdeal.Read
import proofs.«124493_j34883724378155_1_alg».proof.Proof.KernValue
import proofs.«124493_j34883724378155_1_alg».proof.Proof.BitsBody
import proofs.«124493_j34883724378155_1_alg».proof.Proof.RefSide
import proofs.«124493_j34883724378155_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Hand.frame (F := Bits) m ρ

/-- The idealized kernel's frame: its value run with the result dropped. -/
theorem frame_kernel_ideal : Cert.frame_KernelIdeal := fun m ρ _ =>
  (θ_run Cert.KernelIdeal.defs _ _).mono (fun _ h c => (h c).2) (Cert.KernelIdeal.Hand.run m ρ)

/-- The reference's frame: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the layer of their (agreeing, finite) arguments. -/
theorem algebraic : Cert.algebraic_KernelIdeal_ReferenceIdeal := by
  intro m ρ m' ρ' hpre hagree
  refine ⟨fun c => Cert.Spec.layer (m ((c.tc : Thread Cert.KernelIdeal.nD Cert.KernelIdeal.τ).loc Cert.KernelIdeal.main_arg0))
      (sitofp (F := Ideal) .f32 (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs, _⟩ := Cert.Finite.finite_of_pre _ _ _ _ (hpre c)
  rw [Cert.ReferenceIdeal.Read.val_main_v7_eq, (hagree c).1, (hagree c).2.1, (hagree c).2.2.1, (hagree c).2.2.2]
  exact Cert.RefBridge.ref_is_layer _ _ _ _ hx hs

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
